-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000 : Shape := ⟨1, ![500000]⟩
abbrev S500000x32 : Shape := ⟨2, ![500000, 32]⟩
abbrev S500000x64 : Shape := ⟨2, ![500000, 64]⟩
abbrev S64 : Shape := ⟨1, ![64]⟩
abbrev S64x3 : Shape := ⟨2, ![64, 3]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_

variable [Facts]

def fn {F : FTy → Type} [FloatOps F] (main_arg0 : IVec S500000x3 32) (main_arg1 : IVec S500000 32) (main_arg2 : FVec F S500000x32 .f32) (main_arg3 : FVec F S500000x64 .f32) (main_arg4 : IVec S64 32) (main_arg5 : IVec S64x3 32) (main_arg6 : IVec S64x3 32) : IVec S_ 1 :=
  let main_v0 : FVec F S500000x32 .f32 := Host.absf main_arg2
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S500000x64 .f32 := Host.absf main_arg3
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  main_v8
-- ==== Kernel.lean ====
abbrev S500000x3 : Shape := ⟨2, ![500000, 3]⟩
abbrev S500000 : Shape := ⟨1, ![500000]⟩
abbrev S500000x32 : Shape := ⟨2, ![500000, 32]⟩
abbrev S500000x64 : Shape := ⟨2, ![500000, 64]⟩
abbrev S64 : Shape := ⟨1, ![64]⟩
abbrev S64x3 : Shape := ⟨2, ![64, 3]⟩
abbrev S500000x1 : Shape := ⟨2, ![500000, 1]⟩
abbrev S1x64 : Shape := ⟨2, ![1, 64]⟩
abbrev S3x64 : Shape := ⟨2, ![3, 64]⟩
abbrev S2x64x96 : Shape := ⟨3, ![2, 64, 96]⟩
abbrev S5000x3 : Shape := ⟨2, ![5000, 3]⟩
abbrev S5000x1 : Shape := ⟨2, ![5000, 1]⟩
abbrev S5000x32 : Shape := ⟨2, ![5000, 32]⟩
abbrev S5000x64 : Shape := ⟨2, ![5000, 64]⟩
abbrev S1x64x96 : Shape := ⟨3, ![1, 64, 96]⟩
abbrev S64x96 : Shape := ⟨2, ![64, 96]⟩
abbrev S5000 : Shape := ⟨1, ![5000]⟩
abbrev S5000x96 : Shape := ⟨2, ![5000, 96]⟩
abbrev S_ : Shape := ⟨0, ![]⟩

abbrev nBuf : Space → Nat
  | .hbm => 21
  | .vmem => 17
  | .smem => 0
  | _ => 0

abbrev bufTy : (tb : Table) → Fin (tcTables nBuf tb) → BufTy
  | .hbm, ⟨0, _⟩ => ⟨S500000x3, .i32⟩
  | .hbm, ⟨1, _⟩ => ⟨S500000, .i32⟩
  | .hbm, ⟨2, _⟩ => ⟨S500000x32, .f32⟩
  | .hbm, ⟨3, _⟩ => ⟨S500000x64, .f32⟩
  | .hbm, ⟨4, _⟩ => ⟨S64, .i32⟩
  | .hbm, ⟨5, _⟩ => ⟨S64x3, .i32⟩
  | .hbm, ⟨6, _⟩ => ⟨S64x3, .i32⟩
  | .hbm, ⟨7, _⟩ => ⟨S500000x1, .i32⟩
  | .hbm, ⟨8, _⟩ => ⟨S1x64, .i32⟩
  | .hbm, ⟨9, _⟩ => ⟨S3x64, .i32⟩
  | .hbm, ⟨10, _⟩ => ⟨S3x64, .i32⟩
  | .hbm, ⟨11, _⟩ => ⟨S2x64x96, .f32⟩
  | .hbm, ⟨12, _⟩ => ⟨S500000x32, .f32⟩
  | .hbm, ⟨13, _⟩ => ⟨S500000x1, .i32⟩
  | .hbm, ⟨14, _⟩ => ⟨S_, .i32⟩
  | .hbm, ⟨15, _⟩ => ⟨S500000x1, .i32⟩
  | .hbm, ⟨16, _⟩ => ⟨S500000x1, .i1⟩
  | .hbm, ⟨17, _⟩ => ⟨S500000x1, .i1⟩
  | .hbm, ⟨18, _⟩ => ⟨S_, .f32⟩
  | .hbm, ⟨19, _⟩ => ⟨S64x96, .f32⟩
  | .hbm, ⟨20, _⟩ => ⟨S500000, .i1⟩
  | .local _ .vmem, ⟨0, _⟩ => ⟨S5000x3, .i32⟩
  | .local _ .vmem, ⟨1, _⟩ => ⟨S5000x3, .i32⟩
  | .local _ .vmem, ⟨2, _⟩ => ⟨S5000x1, .i32⟩
  | .local _ .vmem, ⟨3, _⟩ => ⟨S5000x1, .i32⟩
  | .local _ .vmem, ⟨4, _⟩ => ⟨S1x64, .i32⟩
  | .local _ .vmem, ⟨5, _⟩ => ⟨S3x64, .i32⟩
  | .local _ .vmem, ⟨6, _⟩ => ⟨S3x64, .i32⟩
  | .local _ .vmem, ⟨7, _⟩ => ⟨S5000x32, .f32⟩
  | .local _ .vmem, ⟨8, _⟩ => ⟨S5000x32, .f32⟩
  | .local _ .vmem, ⟨9, _⟩ => ⟨S5000x64, .f32⟩
  | .local _ .vmem, ⟨10, _⟩ => ⟨S5000x64, .f32⟩
  | .local _ .vmem, ⟨11, _⟩ => ⟨S1x64x96, .f32⟩
  | .local _ .vmem, ⟨12, _⟩ => ⟨S1x64x96, .f32⟩
  | .local _ .vmem, ⟨13, _⟩ => ⟨S5000x32, .f32⟩
  | .local _ .vmem, ⟨14, _⟩ => ⟨S5000x32, .f32⟩
  | .local _ .vmem, ⟨15, _⟩ => ⟨S5000x1, .i32⟩
  | .local _ .vmem, ⟨16, _⟩ => ⟨S5000x1, .i32⟩
  | _, _ => ⟨S500000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S5000x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x64 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S5000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S5000x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S500000_S500000x1 : S500000.ShapeCasts S500000x1
  shapeCasts_S64_S1x64 : S64.ShapeCasts S1x64
  transposes_S64x3_S3x64_1_0 : S64x3.Transposes [1, 0] S3x64
  inb_S1x64x96_S1x64x96_0_0_0 : ∀ a, (![0, 0, 0] : Fin 3 → Nat) a + S1x64x96.size a ≤ S1x64x96.size a
  h_S1x64x96 : 0 < S1x64x96.numel
  shapeCasts_S1x64x96_S64x96 : S1x64x96.ShapeCasts S64x96
  shapeCasts_S64x96_S1x64x96 : S64x96.ShapeCasts S1x64x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S5000x3_S5000x1_0_0 : ∀ a, (![0, 0] : Fin 2 → Nat) a + S5000x1.size a ≤ S5000x3.size a
  inb_S3x64_S1x64_0_0 : ∀ a, (![0, 0] : Fin 2 → Nat) a + S1x64.size a ≤ S3x64.size a
  inb_S5000x3_S5000x1_0_1 : ∀ a, (![0, 1] : Fin 2 → Nat) a + S5000x1.size a ≤ S5000x3.size a
  inb_S3x64_S1x64_1_0 : ∀ a, (![1, 0] : Fin 2 → Nat) a + S1x64.size a ≤ S3x64.size a
  inb_S5000x3_S5000x1_0_2 : ∀ a, (![0, 2] : Fin 2 → Nat) a + S5000x1.size a ≤ S5000x3.size a
  inb_S3x64_S1x64_2_0 : ∀ a, (![2, 0] : Fin 2 → Nat) a + S1x64.size a ≤ S3x64.size a
  inb_S5000x32_S5000x32_0_0 : ∀ a, (![0, 0] : Fin 2 → Nat) a + S5000x32.size a ≤ S5000x32.size a
  h_S5000x32 : 0 < S5000x32.numel
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  natLt_1_32 : 1 < 32
  broadcasts_S5000x1_S5000x32 : S5000x1.Broadcasts S5000x32
  bitsLt_bf16_f32 : FTy.bits .bf16 < FTy.bits .f32
  concatenates_S5000x64_S5000x32_S5000x96_d1 : Shape.Concatenates [S5000x64, S5000x32] S5000x96 1
  bcast_S_S500000x1 : S_.BroadcastsInDim S500000x1 (![] : Fin 0 → Fin S500000x1.rank)
  reducesTo_S2x64x96_S64x96_d0 : S2x64x96.ReducesTo [0] S64x96
  h_S_ : 0 < S_.numel
  shapeCasts_S500000x1_S500000 : S500000x1.ShapeCasts S500000
  dot_S5000x64_S5000x96_S64x96_0_0_1_1_n_n_wf : DotDims.WF S5000x64 S5000x96 S64x96 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .i32 = 32 ∨ (Rect.block (s := S500000x3) S5000x3.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .i32 = 32 ∨ (Rect.block (s := S500000x1) S5000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .i32 = 32 ∨ (Rect.block (s := S1x64) S1x64.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .i32 = 32 ∨ (Rect.block (s := S3x64) S3x64.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .i32 = 32 ∨ (Rect.block (s := S3x64) S3x64.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S500000x32.size a
  hwx0_5 : ∀ i : grid0.Coords, EltTy.bits .f32 = 32 ∨ (Rect.block (s := S500000x32) S5000x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S500000x64.size a
  hwx0_6 : ∀ i : grid0.Coords, EltTy.bits .f32 = 32 ∨ (Rect.block (s := S500000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x96.size a ≤ S2x64x96.size a
  hwx0_7 : ∀ i : grid0.Coords, EltTy.bits .f32 = 32 ∨ (Rect.block (s := S2x64x96) S1x64x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x32.size a ≤ S500000x32.size a
  hwx0_8 : ∀ i : grid0.Coords, EltTy.bits .f32 = 32 ∨ (Rect.block (s := S500000x32) S5000x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S500000x1.size a
  hwx0_9 : ∀ i : grid0.Coords, EltTy.bits .i32 = 32 ∨ (Rect.block (s := S500000x1) S5000x1.size (cc0_transform_9 i) (hinb0_9 i)).WholeWords (EltTy.packing .i32)

variable [Facts₀]

def dot_S5000x64_S5000x96_S64x96_0_0_1_1_n_n : DotDims S5000x64 S5000x96 S64x96 where
  lhsContracting := [0]
  rhsContracting := [0]
  lhsNonContracting := [1]
  rhsNonContracting := [1]
  lhsBatch := []
  rhsBatch := []
  wf := dot_S5000x64_S5000x96_S64x96_0_0_1_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S5000x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S5000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1x64x96.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S5000x32.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S5000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x3 : Shape := ⟨2, ![500000, 3]⟩
abbrev S500000 : Shape := ⟨1, ![500000]⟩
abbrev S500000x32 : Shape := ⟨2, ![500000, 32]⟩
abbrev S500000x64 : Shape := ⟨2, ![500000, 64]⟩
abbrev S64 : Shape := ⟨1, ![64]⟩
abbrev S64x3 : Shape := ⟨2, ![64, 3]⟩
abbrev S500000x96 : Shape := ⟨2, ![500000, 96]⟩
abbrev S1x500000 : Shape := ⟨2, ![1, 500000]⟩
abbrev S64x1 : Shape := ⟨2, ![64, 1]⟩
abbrev S64x500000 : Shape := ⟨2, ![64, 500000]⟩
abbrev S1x500000x3 : Shape := ⟨3, ![1, 500000, 3]⟩
abbrev S64x1x3 : Shape := ⟨3, ![64, 1, 3]⟩
abbrev S64x500000x3 : Shape := ⟨3, ![64, 500000, 3]⟩
abbrev S_ : Shape := ⟨0, ![]⟩
abbrev S64x96 : Shape := ⟨2, ![64, 96]⟩
abbrev S500000x1 : Shape := ⟨2, ![500000, 1]⟩

abbrev nBuf : Space → Nat
  | .hbm => 37
  | .vmem => 0
  | .smem => 0
  | _ => 0

abbrev bufTy : (tb : Table) → Fin (tcTables nBuf tb) → BufTy
  | .hbm, ⟨0, _⟩ => ⟨S500000x3, .i32⟩
  | .hbm, ⟨1, _⟩ => ⟨S500000, .i32⟩
  | .hbm, ⟨2, _⟩ => ⟨S500000x32, .f32⟩
  | .hbm, ⟨3, _⟩ => ⟨S500000x64, .f32⟩
  | .hbm, ⟨4, _⟩ => ⟨S64, .i32⟩
  | .hbm, ⟨5, _⟩ => ⟨S64x3, .i32⟩
  | .hbm, ⟨6, _⟩ => ⟨S64x3, .i32⟩
  | .hbm, ⟨7, _⟩ => ⟨S500000x96, .f32⟩
  | .hbm, ⟨8, _⟩ => ⟨S1x500000, .i32⟩
  | .hbm, ⟨9, _⟩ => ⟨S64x1, .i32⟩
  | .hbm, ⟨10, _⟩ => ⟨S64x500000, .i32⟩
  | .hbm, ⟨11, _⟩ => ⟨S64x500000, .i32⟩
  | .hbm, ⟨12, _⟩ => ⟨S64x500000, .i1⟩
  | .hbm, ⟨13, _⟩ => ⟨S1x500000x3, .i32⟩
  | .hbm, ⟨14, _⟩ => ⟨S64x1x3, .i32⟩
  | .hbm, ⟨15, _⟩ => ⟨S64x500000x3, .i32⟩
  | .hbm, ⟨16, _⟩ => ⟨S64x500000x3, .i32⟩
  | .hbm, ⟨17, _⟩ => ⟨S64x500000x3, .i1⟩
  | .hbm, ⟨18, _⟩ => ⟨S_, .i1⟩
  | .hbm, ⟨19, _⟩ => ⟨S64x500000, .i1⟩
  | .hbm, ⟨20, _⟩ => ⟨S64x500000, .i1⟩
  | .hbm, ⟨21, _⟩ => ⟨S1x500000x3, .i32⟩
  | .hbm, ⟨22, _⟩ => ⟨S64x1x3, .i32⟩
  | .hbm, ⟨23, _⟩ => ⟨S64x500000x3, .i32⟩
  | .hbm, ⟨24, _⟩ => ⟨S64x500000x3, .i32⟩
  | .hbm, ⟨25, _⟩ => ⟨S64x500000x3, .i1⟩
  | .hbm, ⟨26, _⟩ => ⟨S_, .i1⟩
  | .hbm, ⟨27, _⟩ => ⟨S64x500000, .i1⟩
  | .hbm, ⟨28, _⟩ => ⟨S64x500000, .i1⟩
  | .hbm, ⟨29, _⟩ => ⟨S64x500000, .f32⟩
  | .hbm, ⟨30, _⟩ => ⟨S64x96, .f32⟩
  | .hbm, ⟨31, _⟩ => ⟨S_, .i1⟩
  | .hbm, ⟨32, _⟩ => ⟨S500000, .i1⟩
  | .hbm, ⟨33, _⟩ => ⟨S500000x1, .i1⟩
  | .hbm, ⟨34, _⟩ => ⟨S500000x1, .f32⟩
  | .hbm, ⟨35, _⟩ => ⟨S500000x32, .f32⟩
  | .hbm, ⟨36, _⟩ => ⟨S500000x32, .f32⟩
  | _, _ => ⟨S500000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  concatenates_S500000x64_S500000x32_S500000x96_d1 : Shape.Concatenates [S500000x64, S500000x32] S500000x96 1
  bcast_S500000_S1x500000_1 : S500000.BroadcastsInDim S1x500000 (![1] : Fin 1 → Fin S1x500000.rank)
  bcast_S64_S64x1_0 : S64.BroadcastsInDim S64x1 (![0] : Fin 1 → Fin S64x1.rank)
  bcast_S1x500000_S64x500000_0_1 : S1x500000.BroadcastsInDim S64x500000 (![0, 1] : Fin 2 → Fin S64x500000.rank)
  bcast_S64x1_S64x500000_0_1 : S64x1.BroadcastsInDim S64x500000 (![0, 1] : Fin 2 → Fin S64x500000.rank)
  bcast_S500000x3_S1x500000x3_1_2 : S500000x3.BroadcastsInDim S1x500000x3 (![1, 2] : Fin 2 → Fin S1x500000x3.rank)
  bcast_S64x3_S64x1x3_0_2 : S64x3.BroadcastsInDim S64x1x3 (![0, 2] : Fin 2 → Fin S64x1x3.rank)
  bcast_S1x500000x3_S64x500000x3_0_1_2 : S1x500000x3.BroadcastsInDim S64x500000x3 (![0, 1, 2] : Fin 3 → Fin S64x500000x3.rank)
  bcast_S64x1x3_S64x500000x3_0_1_2 : S64x1x3.BroadcastsInDim S64x500000x3 (![0, 1, 2] : Fin 3 → Fin S64x500000x3.rank)
  reducesTo_S64x500000x3_S64x500000_d2 : S64x500000x3.ReducesTo [2] S64x500000
  h_S_ : 0 < S_.numel
  reducesTo_S64x500000_S500000_d0 : S64x500000.ReducesTo [0] S500000
  bcast_S500000_S500000x1_0 : S500000.BroadcastsInDim S500000x1 (![0] : Fin 1 → Fin S500000x1.rank)
  bcast_S500000x1_S500000x32_0_1 : S500000x1.BroadcastsInDim S500000x32 (![0, 1] : Fin 2 → Fin S500000x32.rank)
  dot_S64x500000_S500000x96_S64x96_1_0_0_1_n_n_wf : DotDims.WF S64x500000 S500000x96 S64x96 [1] [0] [0] [1] [] []

variable [Facts₀]

def dot_S64x500000_S500000x96_S64x96_1_0_0_1_n_n : DotDims S64x500000 S500000x96 S64x96 where
  lhsContracting := [1]
  rhsContracting := [0]
  lhsNonContracting := [0]
  rhsNonContracting := [1]
  lhsBatch := []
  rhsBatch := []
  wf := dot_S64x500000_S500000x96_S64x96_1_0_0_1_n_n_wf

class Facts : Prop extends Facts₀ where

variable [Facts]
-- ==== Proof.LibBitFolds.lean ====
/-
  Single bits, their conjunctions and disjunctions over a finite family, and their readings as numbers.

  Two bits are equal when each is 1 exactly when the other is; a fold by AND from 1 over a finite family of bits is 1
  exactly when every member is, a fold by OR from 0 exactly when some member is; the maximum over a finite family of
  "1.0 where the bit is set, else 0.0", started from the -inf word and compared with 0.0 (how a row-wise "any" of a
  mask is computed with float lanes), is 1 exactly when some bit of the family is set; and a bit read as a number is
  the same whether it is read unsigned as it stands or widened to 32 bits and read signed.  All over the extended
  reals of the ideal instance; nothing here mentions a program.
-/
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.BitFolds

open Idealize.ShloMosaic Idealize.ShloMosaic.ValueIdx

/-- Two bits are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb <;> subst ha <;> subst hb
  · rfl
  · exact absurd (h.mpr rfl) (by decide)
  · exact absurd (h.mp rfl) (by decide)
  · rfl

/-- A truth value as a bit is 1 exactly when it is true. -/
theorem ofBool_eq_one {b : Bool} : BitVec.ofBool b = 1#1 ↔ b = true := by cases b <;> decide

/-- A bit read as a number: 0 or 1. -/
def bitR (b : BitVec 1) : EReal := ((b.toNat : ℝ) : EReal)

/-- Widening a bit to 32 bits and reading the word signed gives the same number. -/
theorem toInt_setWidth_bit (b : BitVec 1) : ((((b.setWidth 32).toInt : ℤ) : ℝ) : EReal) = bitR b := by
  rcases BitVec.eq_zero_or_eq_one b with h | h <;> subst h <;> simp [bitR]

theorem bitR_zero : bitR 0#1 = 0 := by simp [bitR]
theorem bitR_one : bitR 1#1 = 1 := by simp [bitR]

/-- A conjunction over a finite family of bits is 1 exactly when every member is. -/
theorem fold_andi_eq_one {ι : Type} [DecidableEq ι] (f : ι → BitVec 1) (s : Finset ι) :
    s.fold IntOp.andi 1#1 f = 1#1 ↔ ∀ k ∈ s, f k = 1#1 := by
  induction s using Finset.induction_on with
  | empty => simp
  | insert a s ha ih =>
    rw [Finset.fold_insert ha, IntOp.andi_eq_one, ih]
    constructor
    · rintro ⟨h1, h2⟩ k hk
      rcases Finset.mem_insert.mp hk with rfl | hk
      · exact h1
      · exact h2 k hk
    · intro h
      exact ⟨h a (Finset.mem_insert_self a s), fun k hk => h k (Finset.mem_insert_of_mem hk)⟩

/-- A disjunction over a finite family of bits is 1 exactly when some member is. -/
theorem fold_ori_eq_one {ι : Type} [DecidableEq ι] (f : ι → BitVec 1) (s : Finset ι) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.mp hk with rfl | hk
      · exact Or.inl h
      · exact Or.inr ⟨k, hk, h⟩

/-- The -inf word is the bottom of the extended reals. -/
theorem ofBits_neg_inf_f32 : Ideal.ofBits .f32 0xFF800000#32 = ⊥ := by simp [Ideal.ofBits, Ideal.ieee]

/-- The row maximum, over a finite family, of "1.0 where the bit is set, else 0.0", started from -inf, is above 0.0
    exactly when some bit of the family is set — the float spelling of a disjunction. -/
theorem max_select_pos {ι : Type} (f : ι → BitVec 1) (s : Finset ι) :
    Ideal.cmp .ogt (s.fold max (Ideal.ofBits .f32 0xFF800000#32)
        (fun k => Scalar.select (f k) (Ideal.ofBits .f32 0x3F800000#32) (Ideal.ofBits .f32 0x00000000#32)))
      (Ideal.ofBits .f32 0x00000000#32) = 1#1 ↔ ∃ k ∈ s, f k = 1#1 := by
  rw [ofBits_neg_inf_f32, Ideal.ofBits_zero_f32, Ideal.ofBits_one_f32]
  unfold Ideal.cmp
  simp only [ofBool_eq_one, decide_eq_true_eq]
  rw [Finset.lt_fold_max]
  constructor
  · rintro (h | ⟨k, hk, h⟩)
    · exact absurd h (by simp)
    · refine ⟨k, hk, ?_⟩
      rcases BitVec.eq_zero_or_eq_one (f k) with h0 | h1
      · rw [h0, select_zero] at h; exact absurd h (lt_irrefl _)
      · exact h1
  · rintro ⟨k, hk, h⟩
    refine Or.inr ⟨k, hk, ?_⟩
    rw [h, select_one]
    exact zero_lt_one

end Cert.BitFolds

end
-- ==== Proof.Spec.lean ====
/-
  The function both programs compute, stated once over the seven argument arrays, with no program in sight.

  A voxel `n` (one of 500000) lies in a box `b` (one of 64) when its batch number is the box's and each of its
  three coordinates is at least the box's minimum and below its maximum on that axis (signed comparisons of 32-bit
  words).  `hit n b` is that bit.  From it:
    * `roi b ch`   — the pooled features of box `b`: the sum over ALL voxels of the bit (read as 0 or 1) times channel
                     `ch` of the voxel's combined features (the 64 convolution channels, then the 32 raw ones);
    * `sel n`      — voxel `n` lies in SOME box: the disjunction of `hit n b` over the boxes;
    * `skip n c`   — raw channel `c` of voxel `n`, times that bit read as 0 or 1.
  The facts about single bits that both sides meet — a conjunction of bits is 1 exactly when all are, a disjunction
  when one is, a maximum over boxes of "1 where hit, else 0" started from -inf is positive exactly when some box is
  hit, and the two ways a bit is read as a number agree — are in Proof/LibBitFolds.lean.
-/
import proofs.«118472_j8358006358542_2_alg».proof.Proof.LibBitFolds
import Idealize.ShloMosaic.PureOps.Ideal.Laws
import Idealize.ShloMosaic.PureOps.Reduce
import Idealize.ShloMosaic.Lib.ValueIdx
import Idealize.ShloMosaic.Lib.Affine
import Idealize.ShloMosaic.Lib.IdealHost

noncomputable section

namespace Cert.RoiSpec

open Idealize.ShloMosaic Idealize.ShloMosaic.ValueIdx

/-! ## Single bits (Proof/LibBitFolds.lean), under this namespace's names -/

export Cert.BitFolds (bit_ext ofBool_eq_one bitR toInt_setWidth_bit bitR_zero bitR_one fold_andi_eq_one fold_ori_eq_one
  ofBits_neg_inf_f32 max_select_pos)

/-! ## The arrays and the three results -/

section
variable (coords : IVec ⟨2, ![500000, 3]⟩ 32) (batch : IVec ⟨1, ![500000]⟩ 32)
  (feat : FVec Ideal ⟨2, ![500000, 32]⟩ .f32) (conv : FVec Ideal ⟨2, ![500000, 64]⟩ .f32)
  (boxb : IVec ⟨1, ![64]⟩ 32) (bmin bmax : IVec ⟨2, ![64, 3]⟩ 32)

/-- Voxel `n` has box `b`'s batch number. -/
def sameBatch (n : Fin 500000) (b : Fin 64) : BitVec 1 := IntOp.cmpi .eq (batch (ix1 n)) (boxb (ix1 b))
/-- Voxel `n`'s coordinate on axis `d` is at least box `b`'s minimum there. -/
def geMin (n : Fin 500000) (b : Fin 64) (d : Fin 3) : BitVec 1 := IntOp.cmpi .sge (coords (ix2 n d)) (bmin (ix2 b d))
/-- Voxel `n`'s coordinate on axis `d` is below box `b`'s maximum there. -/
def ltMax (n : Fin 500000) (b : Fin 64) (d : Fin 3) : BitVec 1 := IntOp.cmpi .slt (coords (ix2 n d)) (bmax (ix2 b d))

/-- Voxel `n` lies in box `b`: the seven conditions, conjoined axis by axis. -/
def hit (n : Fin 500000) (b : Fin 64) : BitVec 1 :=
  IntOp.andi (IntOp.andi (IntOp.andi (IntOp.andi (IntOp.andi (IntOp.andi (sameBatch batch boxb n b)
    (geMin coords bmin n b 0)) (ltMax coords bmax n b 0)) (geMin coords bmin n b 1)) (ltMax coords bmax n b 1))
    (geMin coords bmin n b 2)) (ltMax coords bmax n b 2)

theorem hit_eq_one (n : Fin 500000) (b : Fin 64) :
    hit coords batch boxb bmin bmax n b = 1#1 ↔ sameBatch batch boxb n b = 1#1
      ∧ (∀ d : Fin 3, geMin coords bmin n b d = 1#1) ∧ (∀ d : Fin 3, ltMax coords bmax n b d = 1#1) := by
  unfold hit
  simp only [IntOp.andi_eq_one]
  constructor
  · rintro ⟨⟨⟨⟨⟨⟨h, g0⟩, l0⟩, g1⟩, l1⟩, g2⟩, l2⟩
    refine ⟨h, fun d => ?_, fun d => ?_⟩
    · match d with
      | ⟨0, _⟩ => exact g0
      | ⟨1, _⟩ => exact g1
      | ⟨2, _⟩ => exact g2
    · match d with
      | ⟨0, _⟩ => exact l0
      | ⟨1, _⟩ => exact l1
      | ⟨2, _⟩ => exact l2
  · rintro ⟨h, g, l⟩
    exact ⟨⟨⟨⟨⟨⟨h, g 0⟩, l 0⟩, g 1⟩, l 1⟩, g 2⟩, l 2⟩

/-- Voxel `n` lies in some box. -/
def sel (n : Fin 500000) : BitVec 1 :=
  (Finset.univ : Finset (Fin 64)).fold IntOp.ori 0#1 (fun b => hit coords batch boxb bmin bmax n b)

theorem sel_eq_one (n : Fin 500000) :
    sel coords batch boxb bmin bmax n = 1#1 ↔ ∃ b : Fin 64, hit coords batch boxb bmin bmax n b = 1#1 := by
  unfold sel
  rw [fold_ori_eq_one]
  simp

/-- Channel `ch` of voxel `n`'s combined features: the convolution channels first, then the raw ones. -/
def comb (n : Fin 500000) (ch : Fin 96) : EReal :=
  if h : ch.val < 64 then conv (ix2 n ⟨ch.val, h⟩) else feat (ix2 n ⟨ch.val - 64, by have := ch.isLt; omega⟩)

/-- RESULT 0: box `b`'s pooled features, channel `ch`. -/
def roi : FVec Ideal ⟨2, ![64, 96]⟩ .f32 := fun j =>
  ∑ n : Fin 500000, bitR (hit coords batch boxb bmin bmax n (j 0)) * comb feat conv n (j 1)

/-- RESULT 1: the raw features of the selected voxels, zero elsewhere. -/
def skip : FVec Ideal ⟨2, ![500000, 32]⟩ .f32 := fun j =>
  feat j * bitR (sel coords batch boxb bmin bmax (j 0))

/-- RESULT 2: which voxels are selected. -/
def selv : IVec ⟨1, ![500000]⟩ 1 := fun j => sel coords batch boxb bmin bmax (j 0)

end

end Cert.RoiSpec

end
-- ==== Proof.RefSide.lean ====
/-
  The reference program, read index by index: its three results are the specification's three functions.

  The reference builds the membership bit of box `b` and voxel `n` as (same batch) AND (all three coordinates at
  least the minimum) AND (all three below the maximum), the two "all" being reductions by AND over the coordinate
  axis; the specification conjoins the same seven bits axis by axis.  A conjunction is 1 exactly when every member
  is, so the two bits agree.  The pooled features are then a matrix product contracting the voxel axis (the
  specification's sum, term by term), the selection bit a reduction by OR over the boxes (the specification's
  disjunction), and the skip features the raw features times that bit read as 0 or 1.
-/
import proofs.«118472_j8358006358542_2_alg».proof.Defs
import proofs.«118472_j8358006358542_2_alg».proof.Proof.Gen.ReferenceIdeal.Run
import proofs.«118472_j8358006358542_2_alg».proof.Proof.Gen.ReferenceIdeal.Read
import proofs.«118472_j8358006358542_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic
  Idealize.ShloMosaic.ValueIdx Cert.RoiSpec

variable (x0 : (⟨S500000x3, .i32⟩ : BufTy).Contents (Elt Ideal)) (x1 : (⟨S500000, .i32⟩ : BufTy).Contents (Elt Ideal))
  (x2 : (⟨S500000x32, .f32⟩ : BufTy).Contents (Elt Ideal)) (x3 : (⟨S500000x64, .f32⟩ : BufTy).Contents (Elt Ideal))
  (x4 : (⟨S64, .i32⟩ : BufTy).Contents (Elt Ideal)) (x5 x6 : (⟨S64x3, .i32⟩ : BufTy).Contents (Elt Ideal))

/-- The coordinate axis is the last of [box, voxel, axis]; dropping it leaves [box, voxel]. -/
theorem red_axis : S64x500000x3.Reduces [2] S64x500000 := by decide
/-- The box axis is the first of [box, voxel]; dropping it leaves [voxel]. -/
theorem red_box : S64x500000.Reduces [0] S500000 := by decide

theorem lift_axis (b : Fin 64) (n : Fin 500000) (d : Fin 3) : red_axis.lift (ix2 b n) d = ix3 b n d :=
  funext fun a => Fin.ext (by match a with | ⟨0, _⟩ => rfl | ⟨1, _⟩ => rfl | ⟨2, _⟩ => rfl)

theorem lift_box (n : Fin 500000) (b : Fin 64) : red_box.lift (ix1 n) b = ix2 b n :=
  funext fun a => Fin.ext (by match a with | ⟨0, _⟩ => rfl | ⟨1, _⟩ => rfl)

/-- The broadcast batch numbers compared at (box, voxel). -/
theorem same_at (b : Fin 64) (n : Fin 500000) :
    val_main_v5 (F := Ideal) x1 x4 (ix2 b n) = sameBatch x1 x4 n b := by
  rw [val_main_v5_apply, val_main_v3_apply, val_main_v1_apply, val_main_v4_apply, val_main_v2_apply]
  have e1 : idx_main_v1 (idx_main_v3 (ix2 b n)) = ix1 n := funext fun a => Fin.ext (by match a with | ⟨0, _⟩ => rfl)
  have e2 : idx_main_v2 (idx_main_v4 (ix2 b n)) = ix1 b := funext fun a => Fin.ext (by match a with | ⟨0, _⟩ => rfl)
  rw [e1, e2]
  rfl

/-- The broadcast coordinates against the broadcast minima at (box, voxel, axis). -/
theorem ge_at (b : Fin 64) (n : Fin 500000) (d : Fin 3) :
    val_main_v10 (F := Ideal) x0 x5 (ix3 b n d) = geMin x0 x5 n b d := by
  rw [val_main_v10_apply, val_main_v8_apply, val_main_v6_apply, val_main_v9_apply, val_main_v7_apply]
  have e1 : idx_main_v6 (idx_main_v8 (ix3 b n d)) = ix2 n d :=
    funext fun a => Fin.ext (by match a with | ⟨0, _⟩ => rfl | ⟨1, _⟩ => rfl)
  have e2 : idx_main_v7 (idx_main_v9 (ix3 b n d)) = ix2 b d :=
    funext fun a => Fin.ext (by match a with | ⟨0, _⟩ => rfl | ⟨1, _⟩ => rfl)
  rw [e1, e2]
  rfl

/-- The broadcast coordinates against the broadcast maxima at (box, voxel, axis). -/
theorem lt_at (b : Fin 64) (n : Fin 500000) (d : Fin 3) :
    val_main_v17 (F := Ideal) x0 x6 (ix3 b n d) = ltMax x0 x6 n b d := by
  rw [val_main_v17_apply, val_main_v15_apply, val_main_v13_apply, val_main_v16_apply, val_main_v14_apply]
  have e1 : idx_main_v13 (idx_main_v15 (ix3 b n d)) = ix2 n d :=
    funext fun a => Fin.ext (by match a with | ⟨0, _⟩ => rfl | ⟨1, _⟩ => rfl)
  have e2 : idx_main_v14 (idx_main_v16 (ix3 b n d)) = ix2 b d :=
    funext fun a => Fin.ext (by match a with | ⟨0, _⟩ => rfl | ⟨1, _⟩ => rfl)
  rw [e1, e2]
  rfl

/-- "All coordinates at least the minimum": the reduction by AND over the axis is 1 exactly when each of the three is. -/
theorem all_ge (b : Fin 64) (n : Fin 500000) :
    val_main_v11 (F := Ideal) x0 x5 (ix2 b n) = 1#1 ↔ ∀ d : Fin 3, geMin x0 x5 n b d = 1#1 := by
  unfold val_main_v11
  rw [Host.reduce_eq_fold_single IntOp.andi _ _ _ red_axis _ (ix2 b n)]
  show Finset.fold IntOp.andi 1#1 _ _ = 1#1 ↔ _
  rw [fold_andi_eq_one]
  constructor
  · intro h d
    have h1 : val_main_v10 (F := Ideal) x0 x5 (red_axis.lift (ix2 b n) d) = 1#1 := h d (Finset.mem_univ _)
    exact (ge_at x0 x5 b n d).symm.trans ((congrArg _ (lift_axis b n d)).symm.trans h1)
  · intro h d _
    show val_main_v10 (F := Ideal) x0 x5 (red_axis.lift (ix2 b n) d) = 1#1
    exact (congrArg _ (lift_axis b n d)).trans ((ge_at x0 x5 b n d).trans (h d))

/-- "All coordinates below the maximum", likewise. -/
theorem all_lt (b : Fin 64) (n : Fin 500000) :
    val_main_v18 (F := Ideal) x0 x6 (ix2 b n) = 1#1 ↔ ∀ d : Fin 3, ltMax x0 x6 n b d = 1#1 := by
  unfold val_main_v18
  rw [Host.reduce_eq_fold_single IntOp.andi _ _ _ red_axis _ (ix2 b n)]
  show Finset.fold IntOp.andi 1#1 _ _ = 1#1 ↔ _
  rw [fold_andi_eq_one]
  constructor
  · intro h d
    have h1 : val_main_v17 (F := Ideal) x0 x6 (red_axis.lift (ix2 b n) d) = 1#1 := h d (Finset.mem_univ _)
    exact (lt_at x0 x6 b n d).symm.trans ((congrArg _ (lift_axis b n d)).symm.trans h1)
  · intro h d _
    show val_main_v17 (F := Ideal) x0 x6 (red_axis.lift (ix2 b n) d) = 1#1
    exact (congrArg _ (lift_axis b n d)).trans ((lt_at x0 x6 b n d).trans (h d))

/-- THE MEMBERSHIP BIT: the reference's bit at (box, voxel) is the specification's. -/
theorem inside_at (b : Fin 64) (n : Fin 500000) :
    val_main_v19 (F := Ideal) x0 x1 x4 x5 x6 (ix2 b n) = hit x0 x1 x4 x5 x6 n b := by
  apply bit_ext
  rw [val_main_v19_apply, val_main_v12_apply, IntOp.andi_eq_one, IntOp.andi_eq_one, same_at, all_ge, all_lt, hit_eq_one]
  exact and_assoc

/-- The selection bit: the reduction by OR over the boxes is the specification's disjunction. -/
theorem sel_at (n : Fin 500000) :
    val_main_v22 (F := Ideal) x0 x1 x4 x5 x6 (ix1 n) = sel x0 x1 x4 x5 x6 n := by
  unfold val_main_v22
  rw [Host.reduce_eq_fold_single IntOp.ori _ _ _ red_box _ (ix1 n)]
  show Finset.fold IntOp.ori 0#1 _ _ = _
  unfold sel
  refine Finset.fold_congr fun b _ => ?_
  show val_main_v19 (F := Ideal) x0 x1 x4 x5 x6 (red_box.lift (ix1 n) b) = _
  exact (congrArg _ (lift_box n b)).trans (inside_at x0 x1 x4 x5 x6 b n)

/-- The combined features: the concatenation along the channel axis reads the convolution channels below 64 and
    the raw channels, 64 less, from there on. -/
theorem comb_at (n : Fin 500000) (ch : Fin 96) :
    val_main_v0 (F := Ideal) x2 x3 (ix2 n ch) = comb x2 x3 n ch := by
  unfold val_main_v0 comb
  by_cases h : ch.val < 64
  · rw [dif_pos h]
    exact concatenate_pair_apply_left (1 : Fin 2) x3 x2 _ (ix2 n ch) rfl (ix2 n ⟨ch.val, h⟩)
      (fun b => by match b with | ⟨0, _⟩ => rfl | ⟨1, _⟩ => rfl)
  · rw [dif_neg h]
    exact concatenate_pair_apply_right (1 : Fin 2) x3 x2 _ (ix2 n ch) rfl rfl
      (ix2 n ⟨ch.val - 64, by have := ch.isLt; omega⟩)
      (fun b hb => by match b, hb with | ⟨0, _⟩, _ => rfl | ⟨1, _⟩, hb => exact absurd rfl hb)
      (by show (ch.val - 64) + 64 = ch.val; omega)

/-- RESULT 0: the reference's matrix product is the specification's sum over the voxels. -/
theorem roi_eq : val_main_v21 (F := Ideal) x0 x1 x2 x3 x4 x5 x6 = roi x0 x1 x2 x3 x4 x5 x6 := by
  funext j
  obtain ⟨b, ch, rfl⟩ : ∃ (b : Fin 64) (ch : Fin 96), j = ix2 b ch := ⟨j 0, j 1, eq_ix2 j⟩
  rw [val_main_v21_apply]
  unfold roi
  refine Finset.sum_congr rfl fun n _ => ?_
  have el : lidx_main_v21 (ix2 b ch) n = ix2 b n :=
    funext fun a => Fin.ext (by match a with | ⟨0, _⟩ => rfl | ⟨1, _⟩ => rfl)
  have er : ridx_main_v21 (ix2 b ch) n = ix2 n ch :=
    funext fun a => Fin.ext (by match a with | ⟨0, _⟩ => rfl | ⟨1, _⟩ => rfl)
  rw [el, er, val_main_v20_apply, inside_at, comb_at]
  rfl

/-- RESULT 1: the raw features times the selection bit read as a number. -/
theorem skip_eq : val_main_v26 (F := Ideal) x0 x1 x2 x4 x5 x6 = skip x0 x1 x2 x4 x5 x6 := by
  funext j
  obtain ⟨n, c, rfl⟩ : ∃ (n : Fin 500000) (c : Fin 32), j = ix2 n c := ⟨j 0, j 1, eq_ix2 j⟩
  rw [val_main_v26_apply, val_main_v25_apply, val_main_v24_apply, val_main_v23_apply]
  have e : idx_main_v23 (idx_main_v25 (ix2 n c)) = ix1 n := funext fun a => Fin.ext (by match a with | ⟨0, _⟩ => rfl)
  rw [e, sel_at]
  rfl

/-- RESULT 2: the selection bits. -/
theorem selv_eq : val_main_v22 (F := Ideal) x0 x1 x4 x5 x6 = selv x0 x1 x4 x5 x6 := by
  funext j
  obtain ⟨n, rfl⟩ : ∃ n : Fin 500000, j = ix1 n := ⟨j 0, eq_ix1 j⟩
  exact sel_at x0 x1 x4 x5 x6 n

end Cert.RefSide

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.Body.lean ====
/-
  The kernel body's arithmetic, read at an index, over the vectors it loads (any vectors of those shapes).

  One grid point sees 5000 voxels (rows) and all 64 boxes (lanes).  From the loaded batch column, box-batch row,
  the three coordinate columns and the three rows of transposed minima and maxima it forms the 5000 x 64 array of
  membership bits (`hitB`); a row's "any" is taken as the maximum over the lanes of 1.0-where-set-else-0.0 from
  -inf, compared with 0.0 (`anyB`: a disjunction, by `max_select_pos`); the skip block is the raw block times that
  bit widened and read as a number; the selection block is that bit widened to 32 bits; and the partial pooled
  features are the matrix product, contracting the 5000 rows, of the bits read as numbers with the concatenation
  of the convolution block and the raw block (changes of float format are the identity at the extended reals).
-/
import proofs.«118472_j8358006358542_2_alg».proof.Proof.Gen.KernelIdeal.Skeleton
import proofs.«118472_j8358006358542_2_alg».proof.Proof.Spec
import proofs.«118472_j8358006358542_2_alg».proof.Proof.LibKeepdimsLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RoiBody

open Cert.KernelIdeal Cert.KernelIdeal.Gen Idealize.ShloMosaic Idealize.ShloMosaic.ValueIdx Cert.RoiSpec
  Cert.LayoutKeepdims

variable (v3 : Vec Ideal S5000x1 .i32) (v5 : Vec Ideal S1x64 .i32)
  (v10 : Vec Ideal S5000x1 .i32) (v11 v13 : Vec Ideal S1x64 .i32)
  (v23 : Vec Ideal S5000x1 .i32) (v24 v26 : Vec Ideal S1x64 .i32)
  (v36 : Vec Ideal S5000x1 .i32) (v37 v39 : Vec Ideal S1x64 .i32)
  (v49 : Vec Ideal S5000x32 .f32) (v50 : Vec Ideal S5000x64 .f32)

/-- Row `p` of the block lies in box `q`: the seven comparisons of the loaded columns and rows, conjoined in the
    body's order (batch, then per axis: at least the minimum, below the maximum). -/
def hitB (p : Fin 5000) (q : Fin 64) : BitVec 1 :=
  IntOp.andi (IntOp.andi (IntOp.andi (IntOp.andi (IntOp.andi (IntOp.andi
    (IntOp.cmpi .eq (v3 (ix2 p (0 : Fin 1))) (v5 (ix2 (0 : Fin 1) q)))
    (IntOp.cmpi .sge (v10 (ix2 p (0 : Fin 1))) (v11 (ix2 (0 : Fin 1) q))))
    (IntOp.cmpi .slt (v10 (ix2 p (0 : Fin 1))) (v13 (ix2 (0 : Fin 1) q))))
    (IntOp.cmpi .sge (v23 (ix2 p (0 : Fin 1))) (v24 (ix2 (0 : Fin 1) q))))
    (IntOp.cmpi .slt (v23 (ix2 p (0 : Fin 1))) (v26 (ix2 (0 : Fin 1) q))))
    (IntOp.cmpi .sge (v36 (ix2 p (0 : Fin 1))) (v37 (ix2 (0 : Fin 1) q))))
    (IntOp.cmpi .slt (v36 (ix2 p (0 : Fin 1))) (v39 (ix2 (0 : Fin 1) q)))

/-- The body's mask (its first two payloads composed) at row `p`, lane `q`. -/
theorem mask_apply (p : Fin 5000) (q : Fin 64) :
    k0_pay4 (F := Ideal) (k0_pay3 (F := Ideal) v3 v5 v10 v11 v13 v23 v24 v26) v36 v37 v39 (ix2 p q)
      = hitB v3 v5 v10 v11 v13 v23 v24 v26 v36 v37 v39 p q := by
  unfold k0_pay4 k0_pay3 hitB
  simp only [andi, cmpi, shapeCast_self, broadcastTo_a1_ab_apply, broadcastTo_1b_ab_apply]

/-- Row `p` lies in some box. -/
def anyB (p : Fin 5000) : BitVec 1 :=
  (Finset.univ : Finset (Fin 64)).fold IntOp.ori 0#1 (fun q => hitB v3 v5 v10 v11 v13 v23 v24 v26 v36 v37 v39 p q)

theorem lift_lane (h : S5000x64.Reduces [1] S5000) (p : Fin 5000) (q : Fin 64) : h.lift (ix1 p) q = ix2 p q :=
  funext fun a => Fin.ext (by match a with | ⟨0, _⟩ => rfl | ⟨1, _⟩ => rfl)

/-- A row maximum over the 64 lanes, from the -inf word, read at row `p`: the fold of `max` over the lanes. -/
theorem rowMax_apply (src : FVec Ideal S5000x64 .f32) (h : S5000x64.Reduces [1] S5000) (hφ : FKind.Formats .f32)
    (hacc : (0xFF800000#32 : BitVec (FTy.f32).bits) = FKind.maximumf.neutral .f32 hφ) (p : Fin 5000) :
    multiReduction (F := Ideal) .maximumf [1] S5000 src 0xFF800000#32 h hφ hacc (ix1 p)
      = (Finset.univ : Finset (Fin 64)).fold max (Ideal.ofBits .f32 0xFF800000#32) (fun q => src (ix2 p q)) := by
  refine (Ideal.multiReduction_maximumf_single src 0xFF800000#32 h hφ hacc (ix1 p)).trans ?_
  refine Finset.fold_congr fun q _ => ?_
  exact congrArg src (lift_lane h p q)

/-- The body's row-any bit (the maximum over the lanes of 1.0-where-set-else-0.0, from -inf, compared with 0.0, then
    given a unit axis) at row `p` is the disjunction over the boxes. -/
theorem any_apply (p : Fin 5000) (u : Fin 1) :
    k0_pay5 (F := Ideal) (k0_pay3 (F := Ideal) v3 v5 v10 v11 v13 v23 v24 v26) v36 v37 v39 (ix2 p u)
      = anyB v3 v5 v10 v11 v13 v23 v24 v26 v36 v37 v39 p := by
  unfold k0_pay5
  rw [shapeCast_a_a1_apply]
  refine (congrArg (fun z => FloatOps.cmpf (F := Ideal) (φ := .f32) .ogt z (Ideal.ofBits .f32 0x00000000#32))
    (rowMax_apply _ _ _ _ p)).trans ?_
  apply bit_ext
  unfold anyB
  rw [fold_ori_eq_one]
  refine (max_select_pos (fun q => k0_pay4 (F := Ideal) (k0_pay3 (F := Ideal) v3 v5 v10 v11 v13 v23 v24 v26) v36 v37 v39 (ix2 p q))
    Finset.univ).trans ?_
  exact exists_congr fun q => and_congr Iff.rfl (by rw [mask_apply])

/-- The skip block at (row, raw channel): the raw feature times the row's any-bit read as a number. -/
theorem skip_apply (p : Fin 5000) (c : Fin 32) :
    k0_pay6 (F := Ideal) (k0_pay3 (F := Ideal) v3 v5 v10 v11 v13 v23 v24 v26) v36 v37 v39 v49 (ix2 p c)
      = v49 (ix2 p c) * bitR (anyB v3 v5 v10 v11 v13 v23 v24 v26 v36 v37 v39 p) := by
  unfold k0_pay6
  rw [mulf_apply, broadcastTo_a1_ab_apply, sitofp_apply, extui_apply, any_apply]
  exact congrArg (v49 (ix2 p c) * ·) (toInt_setWidth_bit _)

/-- The selection block at a row: the row's any-bit widened to 32 bits. -/
theorem selword_apply (p : Fin 5000) (u : Fin 1) :
    k0_pay7 (F := Ideal) (k0_pay3 (F := Ideal) v3 v5 v10 v11 v13 v23 v24 v26) v36 v37 v39 (ix2 p u)
      = (anyB v3 v5 v10 v11 v13 v23 v24 v26 v36 v37 v39 p).setWidth 32 := by
  unfold k0_pay7
  rw [extui_apply, any_apply]

/-- Channel `ch` of row `k`'s combined features within the block: the convolution channels, then the raw ones. -/
def combB (k : Fin 5000) (ch : Fin 96) : EReal :=
  if h : ch.val < 64 then v50 (ix2 k ⟨ch.val, h⟩) else v49 (ix2 k ⟨ch.val - 64, by have := ch.isLt; omega⟩)

/-- The block's concatenation along the channel axis, read at (row, channel). -/
theorem concat_apply (a : FVec Ideal S5000x64 .bf16) (b : FVec Ideal S5000x32 .bf16) (k : Fin 5000) (ch : Fin 96) :
    concatenate S5000x96 1 [⟨S5000x64, a⟩, ⟨S5000x32, b⟩] concatenates_S5000x64_S5000x32_S5000x96_d1 (ix2 k ch)
      = if h : ch.val < 64 then a (ix2 k ⟨ch.val, h⟩) else b (ix2 k ⟨ch.val - 64, by have := ch.isLt; omega⟩) := by
  by_cases h : ch.val < 64
  · rw [dif_pos h]
    exact concatenate_pair_apply_left (1 : Fin 2) a b _ (ix2 k ch) rfl (ix2 k ⟨ch.val, h⟩)
      (fun x => by match x with | ⟨0, _⟩ => rfl | ⟨1, _⟩ => rfl)
  · rw [dif_neg h]
    exact concatenate_pair_apply_right (1 : Fin 2) a b _ (ix2 k ch) rfl rfl
      (ix2 k ⟨ch.val - 64, by have := ch.isLt; omega⟩)
      (fun x hx => by match x, hx with | ⟨0, _⟩, _ => rfl | ⟨1, _⟩, hx => exact absurd rfl hx)
      (by show (ch.val - 64) + 64 = ch.val; omega)

theorem lhs_row (i : S64x96.Idx) (q : dot_S5000x64_S5000x96_S64x96_0_0_1_1_n_n.contr.Idx) :
    (dot_S5000x64_S5000x96_S64x96_0_0_1_1_n_n.lhsIdx i q 0).val = (q ⟨0, by decide⟩).val :=
  dot_S5000x64_S5000x96_S64x96_0_0_1_1_n_n.lhsIdx_val_of_single rfl i q
theorem lhs_lane (i : S64x96.Idx) (q : dot_S5000x64_S5000x96_S64x96_0_0_1_1_n_n.contr.Idx) :
    (dot_S5000x64_S5000x96_S64x96_0_0_1_1_n_n.lhsIdx i q 1).val = (i 0).val := by
  unfold DotDims.lhsIdx
  rw [dif_neg (show ¬(1 : Fin S5000x64.rank) ∈ dot_S5000x64_S5000x96_S64x96_0_0_1_1_n_n.lhsBatch by decide), dif_pos (show (1 : Fin S5000x64.rank) ∈ dot_S5000x64_S5000x96_S64x96_0_0_1_1_n_n.lhsNonContracting by decide)]
  rfl
theorem rhs_row (i : S64x96.Idx) (q : dot_S5000x64_S5000x96_S64x96_0_0_1_1_n_n.contr.Idx) :
    (dot_S5000x64_S5000x96_S64x96_0_0_1_1_n_n.rhsIdx i q 0).val = (q ⟨0, by decide⟩).val :=
  dot_S5000x64_S5000x96_S64x96_0_0_1_1_n_n.rhsIdx_val_of_single rfl i q
theorem rhs_chan (i : S64x96.Idx) (q : dot_S5000x64_S5000x96_S64x96_0_0_1_1_n_n.contr.Idx) :
    (dot_S5000x64_S5000x96_S64x96_0_0_1_1_n_n.rhsIdx i q 1).val = (i 1).val := by
  unfold DotDims.rhsIdx
  rw [dif_neg (show ¬(1 : Fin S5000x96.rank) ∈ dot_S5000x64_S5000x96_S64x96_0_0_1_1_n_n.rhsBatch by decide), dif_pos (show (1 : Fin S5000x96.rank) ∈ dot_S5000x64_S5000x96_S64x96_0_0_1_1_n_n.rhsNonContracting by decide)]
  rfl

/-- The matrix product contracting the 5000 rows of both operands, from the zero splat, read at (box, channel): the sum
    over the rows of the left operand at (row, box) times the right operand at (row, channel). -/
theorem matmul_rows (l : FVec Ideal S5000x64 .bf16) (r : FVec Ideal S5000x96 .bf16) (b : Fin 64) (ch : Fin 96) :
    matmul dot_S5000x64_S5000x96_S64x96_0_0_1_1_n_n none l r (constant (F := Ideal) S64x96 .f32 0x00000000#32) (ix2 b ch)
      = ∑ k : Fin 5000, l (ix2 k b) * r (ix2 k ch) := by
  simp only [matmul]
  rw [Ideal.matmul_constant_zero_apply, ← Equiv.sum_comp (contrEquiv1 dot_S5000x64_S5000x96_S64x96_0_0_1_1_n_n 5000 rfl rfl).symm]
  refine Finset.sum_congr rfl fun k _ => ?_
  have hk := contrEquiv1_symm_val dot_S5000x64_S5000x96_S64x96_0_0_1_1_n_n 5000 rfl rfl k
  have el : dot_S5000x64_S5000x96_S64x96_0_0_1_1_n_n.lhsIdx (ix2 b ch) ((contrEquiv1 dot_S5000x64_S5000x96_S64x96_0_0_1_1_n_n 5000 rfl rfl).symm k) = ix2 k b := funext fun a => Fin.ext (by
    match a with
    | ⟨0, _⟩ => exact (lhs_row _ _).trans hk
    | ⟨1, _⟩ => exact lhs_lane _ _)
  have er : dot_S5000x64_S5000x96_S64x96_0_0_1_1_n_n.rhsIdx (ix2 b ch) ((contrEquiv1 dot_S5000x64_S5000x96_S64x96_0_0_1_1_n_n 5000 rfl rfl).symm k) = ix2 k ch := funext fun a => Fin.ext (by
    match a with
    | ⟨0, _⟩ => exact (rhs_row _ _).trans hk
    | ⟨1, _⟩ => exact rhs_chan _ _)
  rw [el, er]

/-- The partial pooled features of the block at (box, channel): the sum over its rows of the membership bit read as a
    number times the row's combined features. -/
theorem partial_apply (b : Fin 64) (ch : Fin 96) :
    k0_pay8 (F := Ideal) (k0_pay3 (F := Ideal) v3 v5 v10 v11 v13 v23 v24 v26) v36 v37 v39 v49 v50 (ix2 b ch)
      = ∑ k : Fin 5000, bitR (hitB v3 v5 v10 v11 v13 v23 v24 v26 v36 v37 v39 k b) * combB v49 v50 k ch := by
  unfold k0_pay8
  rw [matmul_rows]
  refine Finset.sum_congr rfl fun k _ => ?_
  rw [truncf_apply, sitofp_apply, extui_apply, mask_apply, concat_apply]
  refine congrArg₂ (· * ·) (toInt_setWidth_bit _) ?_
  unfold combB
  by_cases h : ch.val < 64
  · rw [dif_pos h, dif_pos h, truncf_apply]
  · rw [dif_neg h, dif_neg h, truncf_apply]

/-- The accumulator store at (unit, box, channel): what the block held there plus the partial product. -/
theorem accum_apply (v72 : FVec Ideal S64x96 .f32) (v73 : Vec Ideal S1x64x96 .f32) (u : Fin 1) (b : Fin 64) (ch : Fin 96) :
    k0_pay1 (F := Ideal) v72 v73 (ix3 u b ch) = v73 (ix3 (0 : Fin 1) b ch) + v72 (ix2 b ch) := by
  unfold k0_pay1
  rw [shapeCast_ab_1ab_apply, addf_apply, shapeCast_1ab_ab_apply]

/-- The reset store is the zero block. -/
theorem zero_apply (u : Fin 1) (b : Fin 64) (ch : Fin 96) : k0_pay2 (F := Ideal) (ix3 u b ch) = 0 := by
  unfold k0_pay2
  rw [shapeCast_ab_1ab_apply, broadcast_apply]
  exact Ideal.ofBits_zero_f32

end Cert.KernelIdeal.RoiBody

end
-- ==== Proof.Pieces.lean ====
/-
  What one run of the kernel body leaves in its three output blocks, as functions of the blocks it was given.

  The body loads the batch column, the box-batch row, the three coordinate columns of the coordinate block and the
  three rows of the transposed minima and maxima, the raw and the convolution block; it stores the skip block and the
  selection block once each, and the accumulator block once (adding the block's partial pooled features to what the
  block held) — after first storing zeros there at the first tile of a core's run.  Each block it leaves is therefore
  its last covering store's value, whose loads read the given blocks (a column or row of a block through a unit-stride
  rectangle is that column or row).
-/
import proofs.«118472_j8358006358542_2_alg».proof.Proof.Gen.KernelIdeal.Frame
import proofs.«118472_j8358006358542_2_alg».proof.Proof.Body
import Idealize.ShloMosaic.Lib.Pipeline.Value
import Idealize.ShloMosaic.Lib.Tactic

noncomputable section

namespace Cert.KernelIdeal.RoiPieces

open Cert.KernelIdeal Cert.KernelIdeal.Gen Idealize.ShloMosaic Idealize.ShloMosaic.TcCoe Idealize.SL.Sem
  Idealize.ShloMosaic.ValueIdx Cert.RoiSpec Cert.KernelIdeal.RoiBody

theorem hz2 : (![0, 0] : Fin 2 → Nat) = fun _ => 0 := funext fun a => by fin_cases a <;> rfl
theorem hz3 : (![0, 0, 0] : Fin 3 → Nat) = fun _ => 0 := funext fun a => by fin_cases a <;> rfl

/-- Column `d` of a coordinate block, as a 5000 x 1 array. -/
def col (x0 : Vec Ideal S5000x3 .i32) (d : Fin 3) : Vec Ideal S5000x1 .i32 :=
  fun j => x0 (ix2 (⟨(j 0).val, idx2_lt0 j⟩ : Fin 5000) d)
/-- Row `d` of a 3 x 64 block (the transposed minima or maxima), as a 1 x 64 array. -/
def row (x : Vec Ideal S3x64 .i32) (d : Fin 3) : Vec Ideal S1x64 .i32 :=
  fun j => x (ix2 d (⟨(j 1).val, idx2_lt1 j⟩ : Fin 64))

theorem col_apply (x0 : Vec Ideal S5000x3 .i32) (d : Fin 3) (p : Fin 5000) (u : Fin 1) : col x0 d (ix2 p u) = x0 (ix2 p d) := rfl
theorem row_apply (x : Vec Ideal S3x64 .i32) (d : Fin 3) (u : Fin 1) (q : Fin 64) : row x d (ix2 u q) = x (ix2 d q) := rfl

/-- A load of the 5000 x 1 rectangle at column `o` of the coordinate block reads that column. -/
theorem ld_col (x0 : Vec Ideal S5000x3 .i32) (o : Nat) (ho : o < 3)
    (inb : ∀ a, (![0, o] : Fin 2 → Nat) a + (![5000, 1] : Fin 2 → Nat) a ≤ S5000x3.size a) :
    View.ld x0 (Rect.unit (s := S5000x3) ![0, o] ![5000, 1] inb) = col x0 ⟨o, ho⟩ := by
  funext j
  show x0 _ = x0 _
  refine congrArg x0 (funext fun a => Fin.ext ?_)
  match a with
  | ⟨0, _⟩ => show 0 + 1 * (j 0).val = (j 0).val; omega
  | ⟨1, _⟩ => show o + 1 * (j 1).val = o; have : (j 1).val < 1 := (j 1).isLt; omega

/-- A load of the 1 x 64 rectangle at row `o` of a 3 x 64 block reads that row. -/
theorem ld_row (x : Vec Ideal S3x64 .i32) (o : Nat) (ho : o < 3)
    (inb : ∀ a, (![o, 0] : Fin 2 → Nat) a + (![1, 64] : Fin 2 → Nat) a ≤ S3x64.size a) :
    View.ld x (Rect.unit (s := S3x64) ![o, 0] ![1, 64] inb) = row x ⟨o, ho⟩ := by
  funext j
  show x _ = x _
  refine congrArg x (funext fun a => Fin.ext ?_)
  match a with
  | ⟨0, _⟩ => show o + 1 * (j 0).val = o; have : (j 0).val < 1 := (j 0).isLt; omega
  | ⟨1, _⟩ => show 0 + 1 * (j 1).val = (j 1).val; omega

theorem ld_col0 (x0 : Vec Ideal S5000x3 .i32) (inb) : View.ld x0 (Rect.unit (s := S5000x3) ![0, 0] ![5000, 1] inb) = col x0 0 := ld_col x0 0 (by decide) inb
theorem ld_col1 (x0 : Vec Ideal S5000x3 .i32) (inb) : View.ld x0 (Rect.unit (s := S5000x3) ![0, 1] ![5000, 1] inb) = col x0 1 := ld_col x0 1 (by decide) inb
theorem ld_col2 (x0 : Vec Ideal S5000x3 .i32) (inb) : View.ld x0 (Rect.unit (s := S5000x3) ![0, 2] ![5000, 1] inb) = col x0 2 := ld_col x0 2 (by decide) inb
theorem ld_row0 (x : Vec Ideal S3x64 .i32) (inb) : View.ld x (Rect.unit (s := S3x64) ![0, 0] ![1, 64] inb) = row x 0 := ld_row x 0 (by decide) inb
theorem ld_row1 (x : Vec Ideal S3x64 .i32) (inb) : View.ld x (Rect.unit (s := S3x64) ![1, 0] ![1, 64] inb) = row x 1 := ld_row x 1 (by decide) inb
theorem ld_row2 (x : Vec Ideal S3x64 .i32) (inb) : View.ld x (Rect.unit (s := S3x64) ![2, 0] ![1, 64] inb) = row x 2 := ld_row x 2 (by decide) inb

/-- Row `p` of the point's voxels lies in box `q`, from the point's blocks. -/
abbrev hitK (x0 : Vec Ideal S5000x3 .i32) (x1 : Vec Ideal S5000x1 .i32) (x2 : Vec Ideal S1x64 .i32) (x3 : Vec Ideal S3x64 .i32) (x4 : Vec Ideal S3x64 .i32) (p : Fin 5000) (q : Fin 64) : BitVec 1 :=
  hitB x1 x2 (col x0 0) (row x3 0) (row x4 0) (col x0 1) (row x3 1) (row x4 1) (col x0 2) (row x3 2) (row x4 2) p q
/-- Row `p` lies in some box. -/
abbrev anyK (x0 : Vec Ideal S5000x3 .i32) (x1 : Vec Ideal S5000x1 .i32) (x2 : Vec Ideal S1x64 .i32) (x3 : Vec Ideal S3x64 .i32) (x4 : Vec Ideal S3x64 .i32) (p : Fin 5000) : BitVec 1 :=
  anyB x1 x2 (col x0 0) (row x3 0) (row x4 0) (col x0 1) (row x3 1) (row x4 1) (col x0 2) (row x3 2) (row x4 2) p

variable (c : Dev nD) (i : grid0.Coords) (arg2 : Memref sig .tc .vmem S5000x3 .i32) (harg2 : arg2.IsWhole) (arg3 : Memref sig .tc .vmem S5000x1 .i32) (harg3 : arg3.IsWhole) (arg4 : Memref sig .tc .vmem S1x64 .i32) (harg4 : arg4.IsWhole) (arg5 : Memref sig .tc .vmem S3x64 .i32) (harg5 : arg5.IsWhole) (arg6 : Memref sig .tc .vmem S3x64 .i32) (harg6 : arg6.IsWhole) (arg7 : Memref sig .tc .vmem S5000x32 .f32) (harg7 : arg7.IsWhole) (arg8 : Memref sig .tc .vmem S5000x64 .f32) (harg8 : arg8.IsWhole) (arg9 : Memref sig .tc .vmem S1x64x96 .f32) (harg9 : arg9.IsWhole) (arg10 : Memref sig .tc .vmem S5000x32 .f32) (harg10 : arg10.IsWhole) (arg11 : Memref sig .tc .vmem S5000x1 .i32) (harg11 : arg11.IsWhole)

/-- The skip block the body leaves when it is not a core's first tile. -/
theorem skip_B (hc0 : ¬cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (xo7 : Vec Ideal S1x64x96 .f32) (p : Fin 5000) (ch : Fin 32) :
    out0_B_8 (F := Ideal) c i arg2 harg2 arg3 harg3 arg4 harg4 arg5 harg5 arg6 harg6 arg7 harg7 arg8 harg8 arg9 harg9 arg10 harg10 arg11 harg11 hc0 x0 x1 x2 x3 x4 x5 x6 xo7 (ix2 p ch)
      = x5 (ix2 p ch) * bitR (anyK x0 x1 x2 x3 x4 p) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 xo7)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  exact skip_apply x1 x2 (col x0 0) (row x3 0) (row x4 0) (col x0 1) (row x3 1) (row x4 1) (col x0 2) (row x3 2) (row x4 2) x5 p ch

/-- The skip block the body leaves at a core's first tile: the same. -/
theorem skip_A (hc0 : cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (p : Fin 5000) (ch : Fin 32) :
    out0_A_8 (F := Ideal) c i arg2 harg2 arg3 harg3 arg4 harg4 arg5 harg5 arg6 harg6 arg7 harg7 arg8 harg8 arg9 harg9 arg10 harg10 arg11 harg11 hc0 x0 x1 x2 x3 x4 x5 x6 (ix2 p ch)
      = x5 (ix2 p ch) * bitR (anyK x0 x1 x2 x3 x4 p) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  exact skip_apply x1 x2 (col x0 0) (row x3 0) (row x4 0) (col x0 1) (row x3 1) (row x4 1) (col x0 2) (row x3 2) (row x4 2) x5 p ch

/-- The selection block the body leaves (not a first tile): each row's any-bit as a 32-bit word. -/
theorem sel_B (hc0 : ¬cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (xo7 : Vec Ideal S1x64x96 .f32) (p : Fin 5000) (u : Fin 1) :
    out0_B_9 (F := Ideal) c i arg2 harg2 arg3 harg3 arg4 harg4 arg5 harg5 arg6 harg6 arg7 harg7 arg8 harg8 arg9 harg9 arg10 harg10 arg11 harg11 hc0 x0 x1 x2 x3 x4 x5 x6 xo7 (ix2 p u)
      = (anyK x0 x1 x2 x3 x4 p).setWidth 32 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 xo7)]
  unfold kernelRun0_B
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  exact selword_apply x1 x2 (col x0 0) (row x3 0) (row x4 0) (col x0 1) (row x3 1) (row x4 1) (col x0 2) (row x3 2) (row x4 2) p u

/-- The selection block at a core's first tile: the same. -/
theorem sel_A (hc0 : cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (p : Fin 5000) (u : Fin 1) :
    out0_A_9 (F := Ideal) c i arg2 harg2 arg3 harg3 arg4 harg4 arg5 harg5 arg6 harg6 arg7 harg7 arg8 harg8 arg9 harg9 arg10 harg10 arg11 harg11 hc0 x0 x1 x2 x3 x4 x5 x6 (ix2 p u)
      = (anyK x0 x1 x2 x3 x4 p).setWidth 32 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  exact selword_apply x1 x2 (col x0 0) (row x3 0) (row x4 0) (col x0 1) (row x3 1) (row x4 1) (col x0 2) (row x3 2) (row x4 2) p u

/-- The point's partial pooled features at (box, channel): the sum over its 5000 rows of the membership bit read as
    a number times the row's combined features. -/
def partK (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (b : Fin 64) (ch : Fin 96) : EReal :=
  ∑ k : Fin 5000, bitR (hitK x0 x1 x2 x3 x4 k b) * combB x5 x6 k ch

/-- The accumulator block after a tile that is not a core's first: what it held, plus the point's partial. -/
theorem acc_B (hc0 : ¬cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (xo7 : Vec Ideal S1x64x96 .f32) (u : Fin 1) (b : Fin 64) (ch : Fin 96) :
    out0_B_7 (F := Ideal) c i arg2 harg2 arg3 harg3 arg4 harg4 arg5 harg5 arg6 harg6 arg7 harg7 arg8 harg8 arg9 harg9 arg10 harg10 arg11 harg11 hc0 x0 x1 x2 x3 x4 x5 x6 xo7 (ix3 u b ch)
      = xo7 (ix3 u b ch) + partK x0 x1 x2 x3 x4 x5 x6 b ch := by
  obtain rfl : u = 0 := Subsingleton.elim _ _
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xo7)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  rw [accum_apply, partial_apply]
  rfl

/-- The accumulator block after a core's first tile: zero, plus the point's partial (the body stores zeros, reads
    them back, and adds). -/
theorem acc_A (hc0 : cond0_0 i) (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32) (u : Fin 1) (b : Fin 64) (ch : Fin 96) :
    out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix3 u b ch)
      = 0 + partK x0 x1 x2 x3 x4 x5 x6 b ch := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x64x96) hz3, View.readCov_unit_zero (S := S1x64x96) _ hz3]
  simp only [View.readAt_eq_ld, harg2.read_unread, harg3.read_unread, harg4.read_unread, harg5.read_unread, harg6.read_unread,
    harg7.read_unread, harg8.read_unread, harg9.read_unread, View.ld_unit_zero (S := S5000x1) hz2, View.ld_unit_zero (S := S1x64) hz2,
    View.ld_unit_zero (S := S5000x32) hz2, View.ld_unit_zero (S := S5000x64) hz2, View.ld_unit_zero (S := S1x64x96) hz3,
    ld_col0, ld_col1, ld_col2, ld_row0, ld_row1, ld_row2]
  rw [accum_apply, partial_apply, zero_apply]
  rfl

/-! ## From a point's blocks to the whole arrays

When a point's blocks read the argument arrays — row `k` of the block being voxel `n k`, the box-batch row the box
batches, the transposed minima and maxima the minima and maxima — the point's bits and sums are the specification's
at those voxels. -/

section Congr
variable (x0 : Vec Ideal S5000x3 .i32) (x1 : Vec Ideal S5000x1 .i32) (x2 : Vec Ideal S1x64 .i32) (x3 : Vec Ideal S3x64 .i32) (x4 : Vec Ideal S3x64 .i32) (x5 : Vec Ideal S5000x32 .f32) (x6 : Vec Ideal S5000x64 .f32)
  (coords : IVec ⟨2, ![500000, 3]⟩ 32) (batch : IVec ⟨1, ![500000]⟩ 32)
  (feat : FVec Ideal ⟨2, ![500000, 32]⟩ .f32) (conv : FVec Ideal ⟨2, ![500000, 64]⟩ .f32)
  (boxb : IVec ⟨1, ![64]⟩ 32) (bmin bmax : IVec ⟨2, ![64, 3]⟩ 32)

theorem hitK_congr (n : Fin 500000) (p : Fin 5000) (q : Fin 64)
    (h0 : ∀ d : Fin 3, x0 (ix2 p d) = coords (ix2 n d)) (h1 : x1 (ix2 p (0 : Fin 1)) = batch (ix1 n))
    (h2 : x2 (ix2 (0 : Fin 1) q) = boxb (ix1 q)) (h3 : ∀ d : Fin 3, x3 (ix2 d q) = bmin (ix2 q d))
    (h4 : ∀ d : Fin 3, x4 (ix2 d q) = bmax (ix2 q d)) :
    hitK x0 x1 x2 x3 x4 p q = hit coords batch boxb bmin bmax n q := by
  unfold hitK hitB hit sameBatch geMin ltMax
  simp only [col_apply, row_apply, h0, h1, h2, h3, h4]

theorem anyK_congr (n : Fin 500000) (p : Fin 5000)
    (h : ∀ q : Fin 64, hitK x0 x1 x2 x3 x4 p q = hit coords batch boxb bmin bmax n q) :
    anyK x0 x1 x2 x3 x4 p = sel coords batch boxb bmin bmax n := by
  unfold anyK anyB sel
  exact Finset.fold_congr fun q _ => h q

theorem combB_congr (n : Fin 500000) (k : Fin 5000) (ch : Fin 96)
    (h5 : ∀ c : Fin 32, x5 (ix2 k c) = feat (ix2 n c)) (h6 : ∀ c : Fin 64, x6 (ix2 k c) = conv (ix2 n c)) :
    combB x5 x6 k ch = comb feat conv n ch := by
  unfold combB comb
  by_cases h : ch.val < 64
  · rw [dif_pos h, dif_pos h, h6]
  · rw [dif_neg h, dif_neg h, h5]

theorem partK_congr (n : Fin 5000 → Fin 500000) (b : Fin 64) (ch : Fin 96)
    (hh : ∀ k : Fin 5000, hitK x0 x1 x2 x3 x4 k b = hit coords batch boxb bmin bmax (n k) b)
    (hc : ∀ k : Fin 5000, combB x5 x6 k ch = comb feat conv (n k) ch) :
    partK x0 x1 x2 x3 x4 x5 x6 b ch
      = ∑ k : Fin 5000, bitR (hit coords batch boxb bmin bmax (n k) b) * comb feat conv (n k) ch := by
  unfold partK
  exact Finset.sum_congr rfl fun k _ => by rw [hh k, hc k]

end Congr

end Cert.KernelIdeal.RoiPieces

end
-- ==== Proof.Blocks.lean ====
/-
  Where the blocks of a grid point sit in the arrays.

  Point `t` (of 100: core `t / 50`, tile `t % 50`) handles the 5000 voxels 5000·t … 5000·t + 4999: the coordinate,
  batch, raw-feature and convolution-feature windows, and the skip and selection outputs, are at block row `t`; the
  box windows are whole arrays; the accumulator output is at block `t / 50` of the two per-core partials.  The batch
  column is the batch vector reshaped to a column, the box-batch row the box batches reshaped to a row, and the minima
  and maxima are transposed on the host before the launch; read at an index each is the argument array at the evident
  place.
-/
import proofs.«118472_j8358006358542_2_alg».proof.Proof.Gen.KernelIdeal.Frame
import proofs.«118472_j8358006358542_2_alg».proof.Proof.LibKeepdimsLayout
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.RoiBlocks

open Cert.KernelIdeal Cert.KernelIdeal.Gen Idealize.ShloMosaic Idealize.ShloMosaic.TcCoe Idealize.SL.Sem
  Idealize.ShloMosaic.ValueIdx Cert.LayoutKeepdims
open Idealize.ShloMosaic.Pipeline (Dat)

variable (m : (ℓ : Loc nD τ sig) → Buf (Elt Ideal) ℓ)

/-- The printed index maps, decided once over the 100 grid points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 3) = t.val / 50 ∧ win0_7.index t (1 : Fin 3) = 0 ∧ win0_7.index t (2 : Fin 3) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- The voxel that row `p` of point `t`'s blocks stands for. -/
def vox (t : Fin cfg0.N) (p : Fin 5000) : Fin 500000 :=
  ⟨5000 * t.val + p.val, by have := t.isLt; have hN : cfg0.N = 100 := N_0; have := p.isLt; omega⟩

theorem vox_val (t : Fin cfg0.N) (p : Fin 5000) : (vox t p).val = 5000 * t.val + p.val := rfl

/-! ## The arrays the host prepares before the launch -/

theorem V_batch (c : Dev nD) : (V m c main_v0 : S500000x1.Idx → BitVec 32)
    = shapeCast S500000x1 (m ((c : Thread nD τ).loc main_arg1)) shapeCasts_S500000_S500000x1 := by
  show StableHlo.after hostOps0 (fun b => m (c, b)) (Proc.devRef .tc main_v0) = _
  after_results
  rfl

theorem V_boxb (c : Dev nD) : (V m c main_v1 : S1x64.Idx → BitVec 32)
    = shapeCast S1x64 (m ((c : Thread nD τ).loc main_arg4)) shapeCasts_S64_S1x64 := by
  show StableHlo.after hostOps0 (fun b => m (c, b)) (Proc.devRef .tc main_v1) = _
  after_results
  rfl

theorem V_bmin (c : Dev nD) : (V m c main_v2 : S3x64.Idx → BitVec 32)
    = transpose S3x64 [1, 0] (m ((c : Thread nD τ).loc main_arg5)) transposes_S64x3_S3x64_1_0 := by
  show StableHlo.after hostOps0 (fun b => m (c, b)) (Proc.devRef .tc main_v2) = _
  after_results

theorem V_bmax (c : Dev nD) : (V m c main_v3 : S3x64.Idx → BitVec 32)
    = transpose S3x64 [1, 0] (m ((c : Thread nD τ).loc main_arg6)) transposes_S64x3_S3x64_1_0 := by
  show StableHlo.after hostOps0 (fun b => m (c, b)) (Proc.devRef .tc main_v3) = _
  after_results

/-! ## The input blocks of point `t`, read -/

theorem blk_coords (c : Dev nD) (t : Fin cfg0.N) (p : Fin 5000) (d : Fin 3) :
    iblk m c 0 t (ix2 p d) = m ((c : Thread nD τ).loc main_arg0) (ix2 (vox t p) d) := by
  obtain ⟨⟨e0, e1⟩, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 3 + 1 * d.val = d.val; rw [e1]; omega

theorem blk_batch (c : Dev nD) (t : Fin cfg0.N) (p : Fin 5000) (u : Fin 1) :
    iblk m c 1 t (ix2 p u) = m ((c : Thread nD τ).loc main_arg1) (ix1 (vox t p)) := by
  obtain ⟨-, ⟨e0, e1⟩, -⟩ := idx_facts t
  unfold iblk
  rw [View.read_apply]
  show V m c main_v0 _ = _
  rw [V_batch]
  refine (congrArg _ (?_ : _ = ix2 (vox t p) (0 : Fin 1))).trans (shapeCast_a_a1_apply _ _ (vox t p) (0 : Fin 1))
  refine funext fun a => Fin.ext ?_
  match a with
  | ⟨0, _⟩ => show win0_1.index t (0 : Fin 2) * 5000 + 1 * p.val = 5000 * t.val + p.val; rw [e0]; omega
  | ⟨1, _⟩ => show win0_1.index t (1 : Fin 2) * 1 + 1 * u.val = 0; rw [e1]; have := u.isLt; omega

theorem blk_boxb (c : Dev nD) (t : Fin cfg0.N) (u : Fin 1) (q : Fin 64) :
    iblk m c 2 t (ix2 u q) = m ((c : Thread nD τ).loc main_arg4) (ix1 q) := by
  obtain ⟨-, -, ⟨e0, e1⟩, -⟩ := idx_facts t
  unfold iblk
  rw [View.read_apply]
  show V m c main_v1 _ = _
  rw [V_boxb]
  refine (congrArg _ (?_ : _ = ix2 (0 : Fin 1) q)).trans (shapeCast_a_1a_apply _ _ (0 : Fin 1) q)
  refine funext fun a => Fin.ext ?_
  match a with
  | ⟨0, _⟩ => show win0_2.index t (0 : Fin 2) * 1 + 1 * u.val = 0; rw [e0]; have := u.isLt; omega
  | ⟨1, _⟩ => show win0_2.index t (1 : Fin 2) * 64 + 1 * q.val = q.val; rw [e1]; omega

theorem blk_bmin (c : Dev nD) (t : Fin cfg0.N) (d : Fin 3) (q : Fin 64) :
    iblk m c 3 t (ix2 d q) = m ((c : Thread nD τ).loc main_arg5) (ix2 q d) := by
  obtain ⟨-, -, -, ⟨e0, e1⟩, -⟩ := idx_facts t
  unfold iblk
  rw [View.read_apply]
  show V m c main_v2 _ = _
  rw [V_bmin]
  refine (congrArg _ (?_ : _ = ix2 d q)).trans (transpose_ix2_apply _ _ d q)
  refine funext fun a => Fin.ext ?_
  match a with
  | ⟨0, _⟩ => show win0_3.index t (0 : Fin 2) * 3 + 1 * d.val = d.val; rw [e0]; omega
  | ⟨1, _⟩ => show win0_3.index t (1 : Fin 2) * 64 + 1 * q.val = q.val; rw [e1]; omega

theorem blk_bmax (c : Dev nD) (t : Fin cfg0.N) (d : Fin 3) (q : Fin 64) :
    iblk m c 4 t (ix2 d q) = m ((c : Thread nD τ).loc main_arg6) (ix2 q d) := by
  obtain ⟨-, -, -, -, ⟨e0, e1⟩, -⟩ := idx_facts t
  unfold iblk
  rw [View.read_apply]
  show V m c main_v3 _ = _
  rw [V_bmax]
  refine (congrArg _ (?_ : _ = ix2 d q)).trans (transpose_ix2_apply _ _ d q)
  refine funext fun a => Fin.ext ?_
  match a with
  | ⟨0, _⟩ => show win0_4.index t (0 : Fin 2) * 3 + 1 * d.val = d.val; rw [e0]; omega
  | ⟨1, _⟩ => show win0_4.index t (1 : Fin 2) * 64 + 1 * q.val = q.val; rw [e1]; omega

theorem blk_feat (c : Dev nD) (t : Fin cfg0.N) (p : Fin 5000) (ch : Fin 32) :
    iblk m c 5 t (ix2 p ch) = m ((c : Thread nD τ).loc main_arg2) (ix2 (vox t p) ch) := by
  obtain ⟨-, -, -, -, -, ⟨e0, e1⟩, -⟩ := idx_facts t
  unfold iblk
  rw [View.read_apply]
  show V m c main_arg2 _ = _
  rw [V_main_arg2]
  refine congrArg (m ((c : Thread nD τ).loc main_arg2)) (funext fun a => Fin.ext ?_)
  match a with
  | ⟨0, _⟩ => show win0_5.index t (0 : Fin 2) * 5000 + 1 * p.val = 5000 * t.val + p.val; rw [e0]; omega
  | ⟨1, _⟩ => show win0_5.index t (1 : Fin 2) * 32 + 1 * ch.val = ch.val; rw [e1]; omega

theorem blk_conv (c : Dev nD) (t : Fin cfg0.N) (p : Fin 5000) (ch : Fin 64) :
    iblk m c 6 t (ix2 p ch) = m ((c : Thread nD τ).loc main_arg3) (ix2 (vox t p) ch) := by
  obtain ⟨-, -, -, -, -, -, ⟨e0, e1⟩, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_6.index t (0 : Fin 2) * 5000 + 1 * p.val = 5000 * t.val + p.val; rw [e0]; omega
  | ⟨1, _⟩ => show win0_6.index t (1 : Fin 2) * 64 + 1 * ch.val = ch.val; rw [e1]; omega

end Cert.KernelIdeal.RoiBlocks

end
-- ==== Proof.PointOut.lean ====
/-
  The two outputs written back at every grid point, as whole arrays after the run.

  What point `t` leaves in its skip block and its selection block depends on its own input blocks only (in both of
  the body's control cases), and those read the argument arrays at the point's 5000 voxels; so the block is a block of
  ONE function of the arguments — the specification's skip features, and each voxel's selection bit widened to a
  32-bit word.  The 100 points' blocks tile the 500000 rows (voxel `n` is in point `n / 5000`'s block), so the arrays
  end holding those functions.
-/
import proofs.«118472_j8358006358542_2_alg».proof.Proof.Pieces
import proofs.«118472_j8358006358542_2_alg».proof.Proof.Blocks

noncomputable section

namespace Cert.KernelIdeal.RoiOut

open Cert.KernelIdeal Cert.KernelIdeal.Gen Idealize.ShloMosaic Idealize.ShloMosaic.TcCoe Idealize.SL.Sem
  Idealize.ShloMosaic.ValueIdx Cert.RoiSpec Cert.KernelIdeal.RoiBody Cert.KernelIdeal.RoiPieces Cert.KernelIdeal.RoiBlocks
open Idealize.ShloMosaic.Pipeline (Dat)

variable (m : (ℓ : Loc nD τ sig) → Buf (Elt Ideal) ℓ) (c : Dev nD)

/-! ## A point's bits and sums are the specification's at the point's voxels -/

theorem hit_at (t : Fin cfg0.N) (p : Fin 5000) (q : Fin 64) :
    hitK (iblk m c 0 t) (iblk m c 1 t) (iblk m c 2 t) (iblk m c 3 t) (iblk m c 4 t) p q = hit (m ((c : Thread nD τ).loc main_arg0)) (m ((c : Thread nD τ).loc main_arg1)) (m ((c : Thread nD τ).loc main_arg4)) (m ((c : Thread nD τ).loc main_arg5)) (m ((c : Thread nD τ).loc main_arg6)) (vox t p) q :=
  hitK_congr (iblk m c 0 t) (iblk m c 1 t) (iblk m c 2 t) (iblk m c 3 t) (iblk m c 4 t) (m ((c : Thread nD τ).loc main_arg0)) (m ((c : Thread nD τ).loc main_arg1)) (m ((c : Thread nD τ).loc main_arg4)) (m ((c : Thread nD τ).loc main_arg5)) (m ((c : Thread nD τ).loc main_arg6)) (vox t p) p q
    (fun d => blk_coords m c t p d) (blk_batch m c t p 0) (blk_boxb m c t 0 q)
    (fun d => blk_bmin m c t d q) (fun d => blk_bmax m c t d q)

theorem any_at (t : Fin cfg0.N) (p : Fin 5000) :
    anyK (iblk m c 0 t) (iblk m c 1 t) (iblk m c 2 t) (iblk m c 3 t) (iblk m c 4 t) p = sel (m ((c : Thread nD τ).loc main_arg0)) (m ((c : Thread nD τ).loc main_arg1)) (m ((c : Thread nD τ).loc main_arg4)) (m ((c : Thread nD τ).loc main_arg5)) (m ((c : Thread nD τ).loc main_arg6)) (vox t p) :=
  anyK_congr (iblk m c 0 t) (iblk m c 1 t) (iblk m c 2 t) (iblk m c 3 t) (iblk m c 4 t) (m ((c : Thread nD τ).loc main_arg0)) (m ((c : Thread nD τ).loc main_arg1)) (m ((c : Thread nD τ).loc main_arg4)) (m ((c : Thread nD τ).loc main_arg5)) (m ((c : Thread nD τ).loc main_arg6)) (vox t p) p (fun q => hit_at m c t p q)

theorem comb_at (t : Fin cfg0.N) (k : Fin 5000) (ch : Fin 96) :
    combB (iblk m c 5 t) (iblk m c 6 t) k ch = comb (m ((c : Thread nD τ).loc main_arg2)) (m ((c : Thread nD τ).loc main_arg3)) (vox t k) ch :=
  combB_congr (iblk m c 5 t) (iblk m c 6 t) (m ((c : Thread nD τ).loc main_arg2)) (m ((c : Thread nD τ).loc main_arg3)) (vox t k) k ch
    (fun c' => blk_feat m c t k c') (fun c' => blk_conv m c t k c')

theorem part_at (t : Fin cfg0.N) (b : Fin 64) (ch : Fin 96) :
    partK (iblk m c 0 t) (iblk m c 1 t) (iblk m c 2 t) (iblk m c 3 t) (iblk m c 4 t) (iblk m c 5 t) (iblk m c 6 t) b ch
      = ∑ k : Fin 5000, bitR (hit (m ((c : Thread nD τ).loc main_arg0)) (m ((c : Thread nD τ).loc main_arg1)) (m ((c : Thread nD τ).loc main_arg4)) (m ((c : Thread nD τ).loc main_arg5)) (m ((c : Thread nD τ).loc main_arg6)) (vox t k) b) * comb (m ((c : Thread nD τ).loc main_arg2)) (m ((c : Thread nD τ).loc main_arg3)) (vox t k) ch :=
  partK_congr (iblk m c 0 t) (iblk m c 1 t) (iblk m c 2 t) (iblk m c 3 t) (iblk m c 4 t) (iblk m c 5 t) (iblk m c 6 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (vox t) b ch
    (fun k => hit_at m c t k b) (fun k => comb_at m c t k ch)

/-! ## Output 8: the skip features -/

/-- What point `t` leaves in its skip block, in either control case. -/
theorem out8_at (t : Fin cfg0.N) (p : Fin 5000) (ch : Fin 32) :
    (outsAt0 (F := Ideal) m c t.val t.isLt).2.1 (ix2 p ch)
      = skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix2 (vox t p) ch) := by
  have key : ∀ x5 : Vec Ideal S5000x32 .f32, x5 (ix2 p ch) = (m ((c : Thread nD τ).loc main_arg2)) (ix2 (vox t p) ch) →
      x5 (ix2 p ch) * bitR (anyK (iblk m c 0 t) (iblk m c 1 t) (iblk m c 2 t) (iblk m c 3 t) (iblk m c 4 t) p) = skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix2 (vox t p) ch) := by
    intro x5 h5
    rw [h5, any_at m c t p]
    rfl
  by_cases h0 : t.val % 50 = 0
  · rw [outsAt0_A m c t h0]
    dsimp only
    exact (skip_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) p ch).trans (key (iblk m c 5 t) (blk_feat m c t p ch))
  · rw [outsAt0_B m c t h0]
    dsimp only
    exact (skip_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).1 p ch).trans (key (iblk m c 5 t) (blk_feat m c t p ch))

/-- What point `t` writes back is block `t` of the specification's skip features. -/
theorem flushed8_eq (t : Fin cfg0.N) :
    (dats (F := Ideal) m 0 c).flushed 8 t
      = ((cfg0.win 8).blk t).view.read (Elt Ideal) (skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  show (cfg0.win 8).cut (grid0.coords t) ((dats m 0 c).after 8 t) = _
  rw [after0_8]
  funext y
  obtain ⟨p, ch, rfl⟩ : ∃ (p : Fin 5000) (ch : Fin 32), y = ix2 p ch := ⟨y 0, y 1, eq_ix2 y⟩
  rw [View.read_apply]
  refine (out8_at m c t p ch).trans (congrArg _ ?_)
  obtain ⟨-, -, -, -, -, -, -, -, ⟨e0, e1⟩, -⟩ := idx_facts t
  refine funext fun a => Fin.ext ?_
  match a with
  | ⟨0, _⟩ => show 5000 * t.val + p.val = win0_8.index t (0 : Fin 2) * 5000 + 1 * p.val; rw [e0]; omega
  | ⟨1, _⟩ => show ch.val = win0_8.index t (1 : Fin 2) * 32 + 1 * ch.val; rw [e1]; omega

/-- An index of the skip array is in point `t`'s block when each coordinate is in the block's range. -/
theorem mem_blk8 (t : Fin cfg0.N) (i : S500000x32.Idx) :
    i ∈ ((cfg0.win 8).blk t).view.set ↔ ∀ a : Fin 2, win0_8.index t a * S5000x32.size a ≤ (i a).val
      ∧ (i a).val < win0_8.index t a * S5000x32.size a + S5000x32.size a := by
  show i ∈ ((View.whole main_v4_1).slice (win0_8.rect t)).set ↔ _
  rw [View.set_slice_whole, Rect.mem_set_unit]
  exact Iff.rfl

/-- Every row is in some point's block: row `n` in point `n / 5000`'s. -/
theorem cover8 (i : S500000x32.Idx) :
    ∃ t : Fin cfg0.N, (cfg0.win 8).flush t = true ∧ i ∈ ((cfg0.win 8).blk t).view.set := by
  have hi0 : (i 0).val < 500000 := (i 0).isLt
  have hi1 : (i 1).val < 32 := (i 1).isLt
  have hN : cfg0.N = 100 := N_0
  obtain ⟨t, ht⟩ : ∃ t : Fin cfg0.N, t.val = (i 0).val / 5000 := ⟨⟨(i 0).val / 5000, by omega⟩, rfl⟩
  obtain ⟨-, -, -, -, -, -, -, -, ⟨e0, e1⟩, -⟩ := idx_facts t
  refine ⟨t, flush0_8 t, ?_⟩
  rw [mem_blk8]
  intro a
  match a with
  | ⟨0, _⟩ =>
    show win0_8.index t (0 : Fin 2) * 5000 ≤ (i 0).val ∧ (i 0).val < win0_8.index t (0 : Fin 2) * 5000 + 5000
    rw [e0]; omega
  | ⟨1, _⟩ =>
    show win0_8.index t (1 : Fin 2) * 32 ≤ (i 1).val ∧ (i 1).val < win0_8.index t (1 : Fin 2) * 32 + 32
    rw [e1]; omega

/-- OUTPUT 8 AFTER THE RUN: the specification's skip features. -/
theorem final8 : (dats (F := Ideal) m 0 c).arrAt 8 cfg0.N = skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (dats (F := Ideal) m 0 c).arrAt_eq_of_cover 8 (skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)))
    (fun t _ => flushed8_eq m c t) (cover8)

/-! ## Output 9: the selection bits, as 32-bit words -/

/-- Each voxel's selection bit widened to a 32-bit word, as a column. -/
def selWords : IVec ⟨2, ![500000, 1]⟩ 32 :=
  fun i => (sel (m ((c : Thread nD τ).loc main_arg0)) (m ((c : Thread nD τ).loc main_arg1)) (m ((c : Thread nD τ).loc main_arg4)) (m ((c : Thread nD τ).loc main_arg5)) (m ((c : Thread nD τ).loc main_arg6)) (⟨(i 0).val, idx2_lt0 i⟩ : Fin 500000)).setWidth 32

theorem selWords_apply (n : Fin 500000) (u : Fin 1) :
    selWords m c (ix2 n u) = (sel (m ((c : Thread nD τ).loc main_arg0)) (m ((c : Thread nD τ).loc main_arg1)) (m ((c : Thread nD τ).loc main_arg4)) (m ((c : Thread nD τ).loc main_arg5)) (m ((c : Thread nD τ).loc main_arg6)) n).setWidth 32 := rfl

/-- What point `t` leaves in its selection block, in either control case. -/
theorem out9_at (t : Fin cfg0.N) (p : Fin 5000) (u : Fin 1) :
    (outsAt0 (F := Ideal) m c t.val t.isLt).2.2 (ix2 p u) = selWords m c (ix2 (vox t p) u) := by
  have key : (anyK (iblk m c 0 t) (iblk m c 1 t) (iblk m c 2 t) (iblk m c 3 t) (iblk m c 4 t) p).setWidth 32 = selWords m c (ix2 (vox t p) u) := by
    rw [any_at m c t p]
    rfl
  by_cases h0 : t.val % 50 = 0
  · rw [outsAt0_A m c t h0]
    dsimp only
    exact (sel_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) p u).trans key
  · rw [outsAt0_B m c t h0]
    dsimp only
    exact (sel_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).1 p u).trans key

theorem flushed9_eq (t : Fin cfg0.N) :
    (dats (F := Ideal) m 0 c).flushed 9 t = ((cfg0.win 9).blk t).view.read (Elt Ideal) (selWords m c) := by
  show (cfg0.win 9).cut (grid0.coords t) ((dats m 0 c).after 9 t) = _
  rw [after0_9]
  funext y
  obtain ⟨p, u, rfl⟩ : ∃ (p : Fin 5000) (u : Fin 1), y = ix2 p u := ⟨y 0, y 1, eq_ix2 y⟩
  rw [View.read_apply]
  refine (out9_at m c t p u).trans (congrArg _ ?_)
  obtain ⟨-, -, -, -, -, -, -, -, -, ⟨e0, e1⟩⟩ := idx_facts t
  refine funext fun a => Fin.ext ?_
  match a with
  | ⟨0, _⟩ => show 5000 * t.val + p.val = win0_9.index t (0 : Fin 2) * 5000 + 1 * p.val; rw [e0]; omega
  | ⟨1, _⟩ => show u.val = win0_9.index t (1 : Fin 2) * 1 + 1 * u.val; rw [e1]; omega

theorem mem_blk9 (t : Fin cfg0.N) (i : S500000x1.Idx) :
    i ∈ ((cfg0.win 9).blk t).view.set ↔ ∀ a : Fin 2, win0_9.index t a * S5000x1.size a ≤ (i a).val
      ∧ (i a).val < win0_9.index t a * S5000x1.size a + S5000x1.size a := by
  show i ∈ ((View.whole main_v4_2).slice (win0_9.rect t)).set ↔ _
  rw [View.set_slice_whole, Rect.mem_set_unit]
  exact Iff.rfl

theorem cover9 (i : S500000x1.Idx) :
    ∃ t : Fin cfg0.N, (cfg0.win 9).flush t = true ∧ i ∈ ((cfg0.win 9).blk t).view.set := by
  have hi0 : (i 0).val < 500000 := (i 0).isLt
  have hi1 : (i 1).val < 1 := (i 1).isLt
  have hN : cfg0.N = 100 := N_0
  obtain ⟨t, ht⟩ : ∃ t : Fin cfg0.N, t.val = (i 0).val / 5000 := ⟨⟨(i 0).val / 5000, by omega⟩, rfl⟩
  obtain ⟨-, -, -, -, -, -, -, -, -, ⟨e0, e1⟩⟩ := idx_facts t
  refine ⟨t, flush0_9 t, ?_⟩
  rw [mem_blk9]
  intro a
  match a with
  | ⟨0, _⟩ =>
    show win0_9.index t (0 : Fin 2) * 5000 ≤ (i 0).val ∧ (i 0).val < win0_9.index t (0 : Fin 2) * 5000 + 5000
    rw [e0]; omega
  | ⟨1, _⟩ =>
    show win0_9.index t (1 : Fin 2) * 1 ≤ (i 1).val ∧ (i 1).val < win0_9.index t (1 : Fin 2) * 1 + 1
    rw [e1]; omega

/-- OUTPUT 9 AFTER THE RUN: each voxel's selection bit as a 32-bit word. -/
theorem final9 : (dats (F := Ideal) m 0 c).arrAt 9 cfg0.N = selWords m c :=
  (dats (F := Ideal) m 0 c).arrAt_eq_of_cover 9 (selWords m c) (fun t _ => flushed9_eq m c t) (cover9)

end Cert.KernelIdeal.RoiOut

end
-- ==== Proof.Accum.lean ====
/-
  The accumulated output: the two per-core partial sums of the pooled features.

  At each of a core's 50 tiles the body adds the tile's partial pooled features into the core's accumulator block,
  which it zeroes at the core's first tile; the block is written back after the core's last tile.  So what the block
  holds after tile `j` of core `q` is zero plus the sum of the partials of tiles 0 … j of that core (a fold over
  consecutive grid points that resets at the multiples of 50), and the array of per-core partials ends holding, for
  core `q`, zero plus the sum over its 50 tiles.  Each tile's partial is the sum over its 5000 rows of the
  specification's term of the voxel that row stands for.
-/
import proofs.«118472_j8358006358542_2_alg».proof.Proof.PointOut

noncomputable section

namespace Cert.KernelIdeal.RoiAcc

open Cert.KernelIdeal Cert.KernelIdeal.Gen Idealize.ShloMosaic Idealize.ShloMosaic.TcCoe Idealize.SL.Sem
  Idealize.ShloMosaic.ValueIdx Cert.RoiSpec Cert.KernelIdeal.RoiBody Cert.KernelIdeal.RoiPieces Cert.KernelIdeal.RoiBlocks
  Cert.KernelIdeal.RoiOut
open Idealize.ShloMosaic.Pipeline (Dat)

variable (m : (ℓ : Loc nD τ sig) → Buf (Elt Ideal) ℓ) (c : Dev nD)

/-- The specification's term of voxel number `n` for (box, channel): the membership bit read as a number times the
    combined feature; zero past the last voxel (never used there). -/
def term (b : Fin 64) (ch : Fin 96) (n : ℕ) : EReal :=
  if h : n < 500000 then bitR (hit (m ((c : Thread nD τ).loc main_arg0)) (m ((c : Thread nD τ).loc main_arg1)) (m ((c : Thread nD τ).loc main_arg4)) (m ((c : Thread nD τ).loc main_arg5)) (m ((c : Thread nD τ).loc main_arg6)) ⟨n, h⟩ b) * comb (m ((c : Thread nD τ).loc main_arg2)) (m ((c : Thread nD τ).loc main_arg3)) ⟨n, h⟩ ch else 0

/-- Grid point `n`'s addend to its core's accumulator block, at an index of the block: the sum over the point's 5000
    voxels of their terms. -/
def addend (n : ℕ) : S1x64x96.Idx → EReal := fun j =>
  ∑ k ∈ Finset.range 5000, term m c ⟨(j 1).val, (j 1).isLt⟩ ⟨(j 2).val, (j 2).isLt⟩ (5000 * n + k)

/-- The partial the body computes at point `n` is that addend. -/
theorem part_eq (n : ℕ) (h : n < cfg0.N) (u : Fin 1) (b : Fin 64) (ch : Fin 96) :
    partK (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) b ch = addend m c n (ix3 u b ch) := by
  have hN : cfg0.N = 100 := N_0
  rw [part_at m c ⟨n, h⟩ b ch]
  unfold addend
  rw [Finset.sum_range]
  refine Finset.sum_congr rfl fun k _ => ?_
  unfold term
  rw [dif_pos (show 5000 * n + k.val < 500000 by have := k.isLt; omega)]
  rfl

/-- At a core's first tile the accumulator block is left at zero plus the point's addend. -/
theorem acc_reset (n : ℕ) (h : n < cfg0.N) (h0 : n % 50 = 0) :
    (outsAt0 (F := Ideal) m c n h).1 = fun j => 0 + addend m c n j := by
  rw [show outsAt0 (F := Ideal) m c n h = _ from outsAt0_A m c ⟨n, h⟩ h0]
  dsimp only
  funext j
  obtain ⟨u, b, ch, rfl⟩ : ∃ (u : Fin 1) (b : Fin 64) (ch : Fin 96), j = ix3 u b ch := ⟨j 0, j 1, j 2, eq_ix3 j⟩
  refine (acc_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) u b ch).trans ?_
  rw [part_eq m c n h u b ch]

/-- At every other tile it is left at what the tile before left, plus the point's addend. -/
theorem acc_step (n : ℕ) (h : n + 1 < cfg0.N) (h0 : ¬(n + 1) % 50 = 0) :
    (outsAt0 (F := Ideal) m c (n + 1) h).1
      = fun j => (outsAt0 (F := Ideal) m c n (Nat.lt_of_succ_lt h)).1 j + addend m c (n + 1) j := by
  rw [show outsAt0 (F := Ideal) m c (n + 1) h = _ from outsAt0_B m c ⟨n + 1, h⟩ h0]
  dsimp only
  funext j
  obtain ⟨u, b, ch, rfl⟩ : ∃ (u : Fin 1) (b : Fin 64) (ch : Fin 96), j = ix3 u b ch := ⟨j 0, j 1, j 2, eq_ix3 j⟩
  refine (acc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)
    (outsAt0 (F := Ideal) m c n (Nat.lt_of_succ_lt h)).1 u b ch).trans ?_
  rw [part_eq m c (n + 1) h u b ch]

/-- THE FOLD: after point `t` the accumulator block holds zero plus the addends of the points of `t`'s core up to `t`. -/
theorem acc_closed (t : ℕ) (ht : t < cfg0.N) (j : S1x64x96.Idx) :
    (outsAt0 (F := Ideal) m c t ht).1 j
      = 0 + ∑ s ∈ Finset.range (t % 50 + 1), addend m c (50 * (t / 50) + s) j := by
  have hN : cfg0.N = 100 := N_0
  have h' : 50 * (t / 50) + t % 50 < cfg0.N := by omega
  have e := Pipeline.eq_accAt_of_mod (fun n h => (outsAt0 (F := Ideal) m c n h).1) 50
    (fun n _ j => 0 + addend m c n j) (fun n _ acc j => acc j + addend m c n j)
    (fun n h h0 => acc_reset m c n h h0) (fun n h h0 => acc_step m c n h h0) (by decide) t ht h'
  refine (congrFun e j).trans ?_
  exact Pipeline.accAt_add_apply _ _ (fun _ => (0 : EReal)) (addend m c) (50 * (t / 50)) 49
    (fun _ _ => rfl) (fun _ _ _ _ _ _ => rfl) (t % 50) (by omega) h' j

/-- Core `q`'s partial sum for (box, channel): zero plus the terms of its 50 tiles of 5000 voxels. -/
def coreSum (q : ℕ) (b : Fin 64) (ch : Fin 96) : EReal :=
  0 + ∑ s ∈ Finset.range 50, ∑ k ∈ Finset.range 5000, term m c b ch (5000 * (50 * q + s) + k)

/-- The array of per-core partials the run should leave. -/
def partials : FVec Ideal S2x64x96 .f32 :=
  fun i => coreSum m c (i 0).val ⟨(i 1).val, (i 1).isLt⟩ ⟨(i 2).val, (i 2).isLt⟩

theorem partials_apply (q : Fin 2) (b : Fin 64) (ch : Fin 96) :
    partials m c (ix3 q b ch) = coreSum m c q.val b ch := rfl

/-- What a core's last tile writes back is that core's block of the per-core partials. -/
theorem flushed7_eq (t : Fin cfg0.N) (hf : (cfg0.win 7).flush t = true) :
    (dats (F := Ideal) m 0 c).flushed 7 t = ((cfg0.win 7).blk t).view.read (Elt Ideal) (partials m c) := by
  have h49 : t.val % 50 = 49 := (flush0_7 t).mp hf
  have hN : cfg0.N = 100 := N_0
  have htN : t.val < 100 := lt_of_lt_of_eq t.isLt hN
  show (cfg0.win 7).cut (grid0.coords t) ((dats m 0 c).after 7 t) = _
  rw [after0_7]
  funext y
  obtain ⟨u, b, ch, rfl⟩ : ∃ (u : Fin 1) (b : Fin 64) (ch : Fin 96), y = ix3 u b ch := ⟨y 0, y 1, y 2, eq_ix3 y⟩
  rw [View.read_apply]
  refine (acc_closed m c t.val t.isLt (ix3 u b ch)).trans ?_
  rw [h49]
  obtain ⟨-, -, -, -, -, -, -, ⟨e0, e1, e2⟩, -⟩ := idx_facts t
  have hemb : ((cfg0.win 7).blk t).view.emb (ix3 u b ch) = ix3 (⟨t.val / 50, by omega⟩ : Fin 2) b ch := by
    refine funext fun a => Fin.ext ?_
    match a with
    | ⟨0, _⟩ => show win0_7.index t (0 : Fin 3) * 1 + 1 * u.val = t.val / 50; rw [e0]; have := u.isLt; omega
    | ⟨1, _⟩ => show win0_7.index t (1 : Fin 3) * 64 + 1 * b.val = b.val; rw [e1]; omega
    | ⟨2, _⟩ => show win0_7.index t (2 : Fin 3) * 96 + 1 * ch.val = ch.val; rw [e2]; omega
  rw [hemb, partials_apply]
  rfl

theorem mem_blk7 (t : Fin cfg0.N) (i : S2x64x96.Idx) :
    i ∈ ((cfg0.win 7).blk t).view.set ↔ ∀ a : Fin 3, win0_7.index t a * S1x64x96.size a ≤ (i a).val
      ∧ (i a).val < win0_7.index t a * S1x64x96.size a + S1x64x96.size a := by
  show i ∈ ((View.whole main_v4_0).slice (win0_7.rect t)).set ↔ _
  rw [View.set_slice_whole, Rect.mem_set_unit]
  exact Iff.rfl

/-- Core `q`'s block is written back by its last tile, point 50·q + 49. -/
theorem cover7 (i : S2x64x96.Idx) :
    ∃ t : Fin cfg0.N, (cfg0.win 7).flush t = true ∧ i ∈ ((cfg0.win 7).blk t).view.set := by
  have hi0 : (i 0).val < 2 := (i 0).isLt
  have hi1 : (i 1).val < 64 := (i 1).isLt
  have hi2 : (i 2).val < 96 := (i 2).isLt
  have hN : cfg0.N = 100 := N_0
  obtain ⟨t, ht⟩ : ∃ t : Fin cfg0.N, t.val = 50 * (i 0).val + 49 := ⟨⟨50 * (i 0).val + 49, by omega⟩, rfl⟩
  obtain ⟨-, -, -, -, -, -, -, ⟨e0, e1, e2⟩, -⟩ := idx_facts t
  refine ⟨t, (flush0_7 t).mpr (by omega), ?_⟩
  rw [mem_blk7]
  intro a
  match a with
  | ⟨0, _⟩ =>
    show win0_7.index t (0 : Fin 3) * 1 ≤ (i 0).val ∧ (i 0).val < win0_7.index t (0 : Fin 3) * 1 + 1
    rw [e0]; omega
  | ⟨1, _⟩ =>
    show win0_7.index t (1 : Fin 3) * 64 ≤ (i 1).val ∧ (i 1).val < win0_7.index t (1 : Fin 3) * 64 + 64
    rw [e1]; omega
  | ⟨2, _⟩ =>
    show win0_7.index t (2 : Fin 3) * 96 ≤ (i 2).val ∧ (i 2).val < win0_7.index t (2 : Fin 3) * 96 + 96
    rw [e2]; omega

/-- OUTPUT 7 AFTER THE RUN: the per-core partial sums. -/
theorem final7 : (dats (F := Ideal) m 0 c).arrAt 7 cfg0.N = partials m c :=
  (dats (F := Ideal) m 0 c).arrAt_eq_of_cover 7 (partials m c) (fun t hf => flushed7_eq m c t hf) (cover7)

end Cert.KernelIdeal.RoiAcc

end
-- ==== Proof.Tiles.lean ====
/-
  Regrouping a sum over the 500000 voxels by the kernel's schedule, in any commutative additive monoid
  (so in particular over the extended reals, with no finiteness asked): 500000 = 2 · 50 · 5000, the voxel
  handled by core `c`, tile `s` of that core, row `k` of that tile being number (50·c + s)·5000 + k.
-/
import Idealize.ShloMosaic.Lib.ValueIdx

namespace Cert.RoiTiles

open Finset

/-- A sum over the first A·B naturals is the sum over A consecutive runs of B. -/
theorem sum_range_mul {M : Type*} [AddCommMonoid M] (f : ℕ → M) (B : ℕ) :
    ∀ A : ℕ, ∑ n ∈ range (A * B), f n = ∑ a ∈ range A, ∑ b ∈ range B, f (a * B + b)
  | 0 => by simp
  | A + 1 => by rw [Nat.succ_mul, Finset.sum_range_add, sum_range_mul f B A, Finset.sum_range_succ]

/-- The voxels, by core, tile and row. -/
theorem sum_voxels {M : Type*} [AddCommMonoid M] (f : ℕ → M) :
    ∑ n ∈ range 500000, f n
      = ∑ c ∈ range 2, ∑ s ∈ range 50, ∑ k ∈ range 5000, f ((50 * c + s) * 5000 + k) := by
  rw [show (500000 : ℕ) = 2 * 250000 from rfl, sum_range_mul f 250000 2]
  refine Finset.sum_congr rfl fun c _ => ?_
  rw [show (250000 : ℕ) = 50 * 5000 from rfl, sum_range_mul (fun r => f (c * (50 * 5000) + r)) 5000 50]
  refine Finset.sum_congr rfl fun s _ => Finset.sum_congr rfl fun k _ => ?_
  exact congrArg f (by ring)

end Cert.RoiTiles
-- ==== Proof.KernelRun.lean ====
/-
  The idealized kernel's run, read: its three results are the specification's three functions.

  Result 1 (the skip features) is the pipeline's own output array.  Result 0 is the host's sum, over the two cores,
  of the per-core partials: zero plus, for each core, zero plus the terms of its 50 tiles of 5000 voxels — the sum
  of all 500000 terms regrouped, which needs only that addition on the extended reals is commutative and associative
  (no finiteness).  Result 2 compares each selection word with zero and drops the unit axis; a bit widened to 32
  bits differs from zero exactly when the bit is set.
-/
import proofs.«118472_j8358006358542_2_alg».proof.Proof.Accum
import proofs.«118472_j8358006358542_2_alg».proof.Proof.Tiles
import Idealize.ShloMosaic.Lib.StableHlo.Run

noncomputable section

namespace Cert.KernelIdeal.RoiRun

open Cert.KernelIdeal Cert.KernelIdeal.Gen Idealize.ShloMosaic Idealize.ShloMosaic.TcCoe Idealize.SL.Sem
  Idealize.ShloMosaic.ValueIdx Cert.RoiSpec Cert.KernelIdeal.RoiBody Cert.KernelIdeal.RoiPieces Cert.KernelIdeal.RoiBlocks
  Cert.KernelIdeal.RoiOut Cert.KernelIdeal.RoiAcc
open Idealize.ShloMosaic.Pipeline (Dat)

variable (m : (ℓ : Loc nD τ sig) → Buf (Elt Ideal) ℓ) (ρ : Dev nD → PrngReg)

/-! ## The pipeline's output arrays as the lines after the region find them -/

theorem arr7 (c : Dev nD) :
    (Pipeline.withArrays (cfgs 0).spec c (V0 m c) (fun w => (dats (F := Ideal) m 0 c).arrAt w (cfgs 0).N) (Proc.devRef .tc main_v4_0)) = partials m c :=
  (Pipeline.withArrays_arr spec0 launch0.win.arr_inj c _ _ 7).trans (final7 m c)

theorem arr9 (c : Dev nD) :
    (Pipeline.withArrays (cfgs 0).spec c (V0 m c) (fun w => (dats (F := Ideal) m 0 c).arrAt w (cfgs 0).N) (Proc.devRef .tc main_v4_2)) = selWords m c :=
  (Pipeline.withArrays_arr spec0 launch0.win.arr_inj c _ _ 9).trans (final9 m c)

/-! ## Result 0: the sum over the cores -/

theorem red_core : S2x64x96.Reduces [0] S64x96 := by decide

theorem lift_core (b : Fin 64) (ch : Fin 96) (q : Fin 2) : red_core.lift (ix2 b ch) q = ix3 q b ch :=
  funext fun a => Fin.ext (by match a with | ⟨0, _⟩ => rfl | ⟨1, _⟩ => rfl | ⟨2, _⟩ => rfl)

/-- The host's sum over the core axis from the zero constant, read at (box, channel). -/
theorem reduce_cores (X : FVec Ideal S2x64x96 .f32) (h' : S2x64x96.ReducesTo [0] S64x96) (hu : 0 < S_.numel)
    (b : Fin 64) (ch : Fin 96) :
    Host.reduceAdd (F := Ideal) X (constant (F := Ideal) S_ .f32 0x00000000#32) h' hu (ix2 b ch)
      = 0 + ∑ q : Fin 2, X (ix3 q b ch) := by
  refine (Ideal.hostReduceAdd_single h' red_core X _ (ix2 b ch)).trans ?_
  exact congrArg₂ (· + ·) Ideal.ofBits_zero_f32 (Finset.sum_congr rfl fun q _ => congrArg X (lift_core b ch q))

/-- THE REGROUPING: zero plus the two cores' partial sums is the sum of all 500000 terms. -/
theorem total_eq (c : Dev nD) (b : Fin 64) (ch : Fin 96) :
    0 + ∑ q : Fin 2, coreSum m c q.val b ch = roi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b ch) := by
  have e1 : roi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 b ch) = ∑ n ∈ Finset.range 500000, term m c b ch n := by
    rw [Finset.sum_range]
    show ∑ n : Fin 500000, _ = _
    refine Finset.sum_congr rfl fun n _ => ?_
    unfold term
    rw [dif_pos n.isLt]
  rw [e1, Cert.RoiTiles.sum_voxels, zero_add, ← Finset.sum_range (fun q => coreSum m c q b ch)]
  refine Finset.sum_congr rfl fun q _ => ?_
  unfold coreSum
  rw [zero_add]
  refine Finset.sum_congr rfl fun s _ => Finset.sum_congr rfl fun k _ => ?_
  exact congrArg (term m c b ch) (by omega)

theorem res_roi (c : Dev nD) :
    Pipeline.afterTail₀ cfgs (dats (F := Ideal) m) 0 (V0 m) [hostOps1] c main_v8 = roi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v8) = _
  after_results
  rw [arr7]
  funext j
  obtain ⟨b, ch, rfl⟩ : ∃ (b : Fin 64) (ch : Fin 96), j = ix2 b ch := ⟨j 0, j 1, eq_ix2 j⟩
  rw [reduce_cores]
  simp only [partials_apply]
  exact total_eq m c b ch

/-! ## Result 2: the selection bits -/

/-- A column [a, 1] cast to a vector [a] reads, at `n`, the column's entry of row `n`. -/
theorem flatten_apply {α : Type} (x : S500000x1.Idx → α) (h : S500000x1.ShapeCasts S500000) (n : Fin 500000) :
    shapeCast S500000 x h (ix1 n) = x (ix2 n (0 : Fin 1)) :=
  shapeCast_apply x h _ _ (by
    rw [Shape.rowMajor_val_two, Shape.rowMajor_val_one]
    show n.val * 1 + 0 = n.val
    omega)

/-- A bit widened to 32 bits differs from zero exactly when the bit is set. -/
theorem ne_zero_setWidth (b : BitVec 1) : IntOp.cmpi .ne (b.setWidth 32) 0#32 = b := by
  rcases BitVec.eq_zero_or_eq_one b with h | h <;> subst h <;> decide

theorem res_sel (c : Dev nD) :
    Pipeline.afterTail₀ cfgs (dats (F := Ideal) m) 0 (V0 m) [hostOps1] c main_v9
      = selv (m ((c : Thread nD τ).loc main_arg0)) (m ((c : Thread nD τ).loc main_arg1)) (m ((c : Thread nD τ).loc main_arg4)) (m ((c : Thread nD τ).loc main_arg5)) (m ((c : Thread nD τ).loc main_arg6)) := by
  have e : Pipeline.afterTail₀ cfgs (dats (F := Ideal) m) 0 (V0 m) [hostOps1] c main_v9
      = shapeCast S500000 (cmpi .ne (Pipeline.withArrays (cfgs 0).spec c (V0 m c) (fun w => (dats (F := Ideal) m 0 c).arrAt w (cfgs 0).N) (Proc.devRef .tc main_v4_2))
          (broadcastInDim S500000x1 ![] bcast_S_S500000x1 (constantI S_ 32 0#32))) shapeCasts_S500000x1_S500000 := by
    unfold Pipeline.afterTail₀
    show StableHlo.after hostOps1 _ (Proc.devRef .tc main_v9) = _
    after_results
    rfl
  rw [e, arr9]
  funext j
  obtain ⟨n, rfl⟩ : ∃ n : Fin 500000, j = ix1 n := ⟨j 0, eq_ix1 j⟩
  rw [flatten_apply]
  show IntOp.cmpi .ne (selWords m c (ix2 n (0 : Fin 1))) _ = _
  rw [selWords_apply, broadcastInDim_apply _ bcast_S_S500000x1 _ (ix2 n (0 : Fin 1)) ix0 (fun a => a.elim0)]
  exact ne_zero_setWidth _

/-! ## The run -/

/-- Every weakly fair execution of the idealized kernel's @main terminates with its three results at the
    specification's functions of the argument arrays, and the argument arrays unchanged. -/
theorem run : θ_run defs (onTc (τ := τ) (main (F := Ideal))) ⟨m, fun _ => 0, ρ⟩ fun r => ∀ c : Dev nD,
      r.2.mem ((c.tc : Thread nD τ).loc main_v8) = roi (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v4_1) = skip (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_v9) = selv (m ((c : Thread nD τ).loc main_arg0)) (m ((c : Thread nD τ).loc main_arg1)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v8 (Pipeline.mem_restRefs_of main_v8 (by decide) (by decide))).trans (res_roi m c),
      ((h c).1 8).trans (final8 m c),
      ((h c).2 main_v9 (Pipeline.mem_restRefs_of main_v9 (by decide) (by decide))).trans (res_sel m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RoiRun

end
-- ==== Proof.lean ====
/-
  Pooling sparse voxel features into boxes: a tiled kernel against a dense reference, over the extended reals.

  500000 voxels carry integer coordinates, a batch number, 32 raw and 64 convolution features; 64 boxes carry a batch
  number and integer minima and maxima.  A voxel lies in a box when the batch numbers agree and each coordinate is at
  least the minimum and below the maximum.  Both programs return (0) per box, the sum over its voxels of the 96 combined
  features, (1) the raw features of the voxels lying in some box, zero elsewhere, (2) which voxels those are.

  The reference forms the whole 64 x 500000 membership matrix and multiplies.  The kernel walks the voxels in 100 tiles
  of 5000, two runs of 50 tiles accumulating into one partial each, and the host adds the two partials.  At the
  extended reals a change of float format is the identity, so the two programs differ only in how one sum over the
  voxels is grouped (Proof/Tiles.lean: addition is commutative and associative; no finiteness is used) and in how a
  conjunction or a disjunction of bits is spelt (Proof/Spec.lean).  Proof/RefSide.lean reads the reference index by
  index; Proof/Body.lean, Pieces.lean, Blocks.lean, PointOut.lean, Accum.lean and KernelRun.lean read the kernel: the
  body's arithmetic, what one run of the body leaves, where a tile's blocks sit in the arrays, the two outputs
  written at every tile, the accumulated output, and the lines after the launch.  The three frames are the generated
  frame runs, and the idealization rewrote nothing.
-/
import proofs.«118472_j8358006358542_2_alg».proof.Defs
import proofs.«118472_j8358006358542_2_alg».proof.Proof.Gen.Kernel
import proofs.«118472_j8358006358542_2_alg».proof.Proof.Gen.Kernel.Frame
import proofs.«118472_j8358006358542_2_alg».proof.Proof.Gen.KernelIdeal
import proofs.«118472_j8358006358542_2_alg».proof.Proof.Gen.KernelIdeal.Frame
import proofs.«118472_j8358006358542_2_alg».proof.Proof.Gen.ReferenceIdeal
import proofs.«118472_j8358006358542_2_alg».proof.Proof.Gen.Pre_finite_inputs
import proofs.«118472_j8358006358542_2_alg».proof.Proof.RefSide
import proofs.«118472_j8358006358542_2_alg».proof.Proof.KernelRun
import Idealize.ShloMosaic.Adequacy
import Idealize.ShloMosaic.Init

noncomputable section

namespace Cert.Proof

open Idealize.ShloMosaic Idealize.ShloMosaic.TcCoe Idealize.SL.Sem Cert.RoiSpec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both runs end at the specification's three functions of arguments that agree. -/
theorem algebraic : Cert.algebraic_KernelIdeal_ReferenceIdeal := by
  intro m ρ m' ρ' _ hagree
  refine ⟨_, _, _, Cert.KernelIdeal.RoiRun.run m ρ, ?_⟩
  refine (θ_run Cert.ReferenceIdeal.defs _ _).mono (fun _ h c => ?_) (Cert.ReferenceIdeal.Value.run (F := Ideal) m' ρ')
  obtain ⟨h21, h26, h22, hargs⟩ := h c
  obtain ⟨a0, a1, a2, a3, a4, a5, a6⟩ := hagree c
  refine ⟨h21.trans ?_, h26.trans ?_, h22.trans ?_, hargs⟩
  · rw [Cert.ReferenceIdeal.Read.val_main_v21_eq, Cert.RefSide.roi_eq, a0, a1, a2, a3, a4, a5, a6]
  · rw [Cert.ReferenceIdeal.Read.val_main_v26_eq, Cert.RefSide.skip_eq, a0, a1, a2, a4, a5, a6]
  · rw [Cert.ReferenceIdeal.Read.val_main_v22_eq, Cert.RefSide.selv_eq, a0, a1, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
